-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S256x10 .f32) (main_arg14 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x10 .f32 := Host.absf main_arg13
  let main_cst_20 : FVec F S_ .f32 := constant S_ .f32 0x7F800000#32
  let main_v55 : FVec F S256x10 .f32 := broadcastInDim S256x10 ![] bcast_S_S256x10 main_cst_20
  let main_v56 : IVec S256x10 1 := cmpf .olt main_v54 main_v55
  let main_c_21 : IVec S_ 1 := constantI S_ 1 1#1
  let main_v57 : IVec S_ 1 := (fun x v => Host.reduce IntOp.andi x v reducesTo_S256x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg9 : FVec F S128x256 .f32) (main_arg10 : FVec F S256 .f32) (main_arg11 : FVec F S256x256 .f32) (main_arg12 : FVec F S256 .f32) (main_arg13 : FVec F S256x10 .f32) (main_arg14 : FVec F S10 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S64 .f32) (main_arg7 : FVec F S64x128 .f32) (main_arg8 : FVec F S128 .f32) (main_arg9 : FVec F S128x256 .f32) (main_arg10 : FVec F S256 .f32) (main_arg11 : FVec F S256x256 .f32) (main_arg12 : FVec F S256 .f32) (main_arg13 : FVec F S256x10 .f32) (main_arg14 : FVec F S10 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S128x32 .f32) (main_arg4 : FVec F S32 .f32) (main_arg5 : FVec F S32x64 .f32) (main_arg6 : FVec F S64 .f32) (main_arg7 : FVec F S64x128 .f32) (main_arg8 : FVec F S128 .f32) (main_arg9 : FVec F S128x256 .f32) (main_arg10 : FVec F S256 .f32) (main_arg11 : FVec F S256x256 .f32) (main_arg12 : FVec F S256 .f32) (main_arg13 : FVec F S256x10 .f32) (main_arg14 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x32 : Shape := ⟨2, ![50000, 32]⟩
abbrev S5000x128 : Shape := ⟨2, ![5000, 128]⟩
abbrev S5000x32 : Shape := ⟨2, ![5000, 32]⟩
abbrev S850000x32 : Shape := ⟨2, ![850000, 32]⟩
abbrev S1x32 : Shape := ⟨2, ![1, 32]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩
abbrev S50000x256 : Shape := ⟨2, ![50000, 256]⟩
abbrev S5000x256 : Shape := ⟨2, ![5000, 256]⟩
abbrev S850000x256 : Shape := ⟨2, ![850000, 256]⟩
abbrev S1x256 : Shape := ⟨2, ![1, 256]⟩
abbrev S500 : Shape := ⟨1, ![500]⟩
abbrev S50000x1 : Shape := ⟨2, ![50000, 1]⟩
abbrev S500x256 : Shape := ⟨2, ![500, 256]⟩
abbrev S500x1 : Shape := ⟨2, ![500, 1]⟩
abbrev S1x10 : Shape := ⟨2, ![1, 10]⟩
abbrev S500x10 : Shape := ⟨2, ![500, 10]⟩

abbrev nBuf : Space → Nat
  | .hbm => 162
  | .vmem => 26
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x32, .f32⟩
  | 4 => ⟨S32, .f32⟩
  | 5 => ⟨S32x64, .f32⟩
  | 6 => ⟨S64, .f32⟩
  | 7 => ⟨S64x128, .f32⟩
  | 8 => ⟨S128, .f32⟩
  | 9 => ⟨S128x256, .f32⟩
  | 10 => ⟨S256, .f32⟩
  | 11 => ⟨S256x256, .f32⟩
  | 12 => ⟨S256, .f32⟩
  | 13 => ⟨S256x10, .f32⟩
  | 14 => ⟨S10, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x32, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x32, .f32⟩
  | 61 => ⟨S850000x1, .f32⟩
  | 62 => ⟨S850000x32, .f32⟩
  | 63 => ⟨S850000x32, .f32⟩
  | 64 => ⟨S_, .f32⟩
  | 65 => ⟨S50000x32, .f32⟩
  | 66 => ⟨S850000x1, .i32⟩
  | 67 => ⟨S50000x32, .f32⟩
  | 68 => ⟨S1x32, .f32⟩
  | 69 => ⟨S50000x32, .f32⟩
  | 70 => ⟨S50000x32, .f32⟩
  | 71 => ⟨S_, .f32⟩
  | 72 => ⟨S50000x32, .f32⟩
  | 73 => ⟨S50000x32, .f32⟩
  | 74 => ⟨S50000x64, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x64, .f32⟩
  | 84 => ⟨S850000x1, .f32⟩
  | 85 => ⟨S850000x64, .f32⟩
  | 86 => ⟨S850000x64, .f32⟩
  | 87 => ⟨S_, .f32⟩
  | 88 => ⟨S50000x64, .f32⟩
  | 89 => ⟨S850000x1, .i32⟩
  | 90 => ⟨S50000x64, .f32⟩
  | 91 => ⟨S1x64, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S50000x128, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x1, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x256, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000x256, .f32⟩
  | 2 => ⟨S850000x1, .f32⟩
  | 3 => ⟨S850000x256, .f32⟩
  | 4 => ⟨S850000x256, .f32⟩
  | 5 => ⟨S_, .f32⟩
  | 6 => ⟨S50000x256, .f32⟩
  | 7 => ⟨S850000x1, .i32⟩
  | 8 => ⟨S50000x256, .f32⟩
  | 9 => ⟨S1x256, .f32⟩
  | 10 => ⟨S50000x256, .f32⟩
  | 11 => ⟨S50000x256, .f32⟩
  | 12 => ⟨S_, .f32⟩
  | 13 => ⟨S50000x256, .f32⟩
  | 14 => ⟨S50000x256, .f32⟩
  | 15 => ⟨S_, .f32⟩
  | 16 => ⟨S50000, .f32⟩
  | 17 => ⟨S_, .f32⟩
  | 18 => ⟨S500, .f32⟩
  | 19 => ⟨S50000x1, .i32⟩
  | 20 => ⟨S500, .f32⟩
  | 21 => ⟨S_, .f32⟩
  | 22 => ⟨S500x256, .f32⟩
  | 23 => ⟨S50000x1, .i32⟩
  | 24 => ⟨S500x256, .f32⟩
  | 25 => ⟨S_, .f32⟩
  | 26 => ⟨S500, .f32⟩
  | 27 => ⟨S500, .f32⟩
  | 28 => ⟨S500x1, .f32⟩
  | 29 => ⟨S500x256, .f32⟩
  | 30 => ⟨S500x256, .f32⟩
  | 31 => ⟨S1x256, .f32⟩
  | 32 => ⟨S1x10, .f32⟩
  | 33 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x256, .f32⟩
  | .local _ .vmem, ⟨18, _⟩ => ⟨S5000x256, .f32⟩
  | .local _ .vmem, ⟨19, _⟩ => ⟨S5000x256, .f32⟩
  | .local _ .vmem, ⟨20, _⟩ => ⟨S500x256, .f32⟩
  | .local _ .vmem, ⟨21, _⟩ => ⟨S256x256, .f32⟩
  | .local _ .vmem, ⟨22, _⟩ => ⟨S1x256, .f32⟩
  | .local _ .vmem, ⟨23, _⟩ => ⟨S256x10, .f32⟩
  | .local _ .vmem, ⟨24, _⟩ => ⟨S1x10, .f32⟩
  | .local _ .vmem, ⟨25, _⟩ => ⟨S500x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call0_cst : Ref sig .tc := ⟨.hbm, 71, rfl⟩
abbrev main_call0_v0 : Ref sig .tc := ⟨.hbm, 72, rfl⟩
abbrev main_v46 : Ref sig .tc := ⟨.hbm, 73, rfl⟩
abbrev main_v47 : Ref sig .tc := ⟨.hbm, 74, rfl⟩
abbrev main_c_8 : Ref sig .tc := ⟨.hbm, 75, rfl⟩
abbrev main_v48 : Ref sig .tc := ⟨.hbm, 76, rfl⟩
abbrev main_v49 : Ref sig .tc := ⟨.hbm, 77, rfl⟩
abbrev main_c_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call1_cst : Ref sig .tc := ⟨.hbm, 94, rfl⟩
abbrev main_call1_v0 : Ref sig .tc := ⟨.hbm, 95, rfl⟩
abbrev main_v64 : Ref sig .tc := ⟨.hbm, 96, rfl⟩
abbrev main_v65 : Ref sig .tc := ⟨.hbm, 97, rfl⟩
abbrev main_c_11 : Ref sig .tc := ⟨.hbm, 98, rfl⟩
abbrev main_v66 : Ref sig .tc := ⟨.hbm, 99, rfl⟩
abbrev main_v67 : Ref sig .tc := ⟨.hbm, 100, rfl⟩
abbrev main_c_12 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call2_cst : Ref sig .tc := ⟨.hbm, 117, rfl⟩
abbrev main_call2_v0 : Ref sig .tc := ⟨.hbm, 118, rfl⟩
abbrev main_v82 : Ref sig .tc := ⟨.hbm, 119, rfl⟩
abbrev main_v83 : Ref sig .tc := ⟨.hbm, 120, rfl⟩
abbrev main_c_14 : Ref sig .tc := ⟨.hbm, 121, rfl⟩
abbrev main_v84 : Ref sig .tc := ⟨.hbm, 122, rfl⟩
abbrev main_v85 : Ref sig .tc := ⟨.hbm, 123, rfl⟩
abbrev main_c_15 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_16 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call3_cst : Ref sig .tc := ⟨.hbm, 140, rfl⟩
abbrev main_call3_v0 : Ref sig .tc := ⟨.hbm, 141, rfl⟩
abbrev main_v100 : Ref sig .tc := ⟨.hbm, 142, rfl⟩
abbrev main_cst_17 : Ref sig .tc := ⟨.hbm, 143, rfl⟩
abbrev main_v101 : Ref sig .tc := ⟨.hbm, 144, rfl⟩
abbrev main_cst_18 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_19 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_20 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S500x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S500x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S500 : S_.BroadcastsInDim S500 (![] : Fin 0 → Fin S500.rank)
  bcast_S50000_S50000x1_0 : S50000.BroadcastsInDim S50000x1 (![0] : Fin 1 → Fin S50000x1.rank)
  bcast_S_S500x256 : S_.BroadcastsInDim S500x256 (![] : Fin 0 → Fin S500x256.rank)
  bcast_S500_S500x1_0 : S500.BroadcastsInDim S500x1 (![0] : Fin 1 → Fin S500x1.rank)
  bcast_S500x1_S500x256_0_1 : S500x1.BroadcastsInDim S500x256 (![0, 1] : Fin 2 → Fin S500x256.rank)
  shapeCasts_S256_S1x256 : S256.ShapeCasts S1x256
  shapeCasts_S10_S1x10 : S10.ShapeCasts S1x10
  inb_S500x256_S500x256_0_0 : ∀ a, (![0, 0] : Fin 2 → Nat) a + S500x256.size a ≤ S500x256.size a
  h_S500x256 : 0 < S500x256.numel
  shapeCasts_S500x256_S500x256 : S500x256.ShapeCasts S500x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S500x256 : S1x256.Broadcasts S500x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S500x10 : S1x10.Broadcasts S500x10
  inb_S500x10_S500x10_0_0 : ∀ a, (![0, 0] : Fin 2 → Nat) a + S500x10.size a ≤ S500x10.size a
  h_S500x10 : 0 < S500x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x32_S5000x32_1_0_0_1_n_n_wf : DotDims.WF S5000x128 S128x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S5000x32_S32x64_S5000x64_1_0_0_1_n_n_wf : DotDims.WF S5000x32 S32x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S500_S50000x1_S50000_n_0_0_1_wf : ScatterDims.WF S500 S50000x1 S50000 [] [0] [0] 1
  scatter_S500x256_S50000x1_S50000x256_1_0_0_1_wf : ScatterDims.WF S500x256 S50000x1 S50000x256 [1] [0] [0] 1
  dot_S500x256_S256x256_S500x256_1_0_0_1_n_n_wf : DotDims.WF S500x256 S256x256 S500x256 [1] [0] [0] [1] [] []
  dot_S500x256_S256x10_S500x10_1_0_0_1_n_n_wf : DotDims.WF S500x256 S256x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S50000x32.size a
  hwx0_2 : ∀ i : grid0.Coords, EltTy.bits .f32 = 32 ∨ (Rect.block (s := S50000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S500x256.size a ≤ S500x256.size a
  hwx4_0 : ∀ i : grid4.Coords, EltTy.bits .f32 = 32 ∨ (Rect.block (s := S500x256) S500x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x10.size a ≤ S256x10.size a
  hwx4_3 : ∀ i : grid4.Coords, EltTy.bits .f32 = 32 ∨ (Rect.block (s := S256x10) S256x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S500x10.size a ≤ S500x10.size a
  hwx4_5 : ∀ i : grid4.Coords, EltTy.bits .f32 = 32 ∨ (Rect.block (s := S500x10) S500x10.size (cc4_transform_5 i) (hinb4_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def scatter_S500x256_S50000x1_S50000x256_1_0_0_1 : ScatterDims S500x256 S50000x1 S50000x256 where
  updateWindowDims := [1]
  insertedWindowDims := [0]
  scatterDimsToOperandDims := [0]
  indexVectorDim := 1
  wf := scatter_S500x256_S50000x1_S50000x256_1_0_0_1_wf
def dot_S500x256_S256x256_S500x256_1_0_0_1_n_n : DotDims S500x256 S256x256 S500x256 where
  lhsContracting := [1]
  rhsContracting := [0]
  lhsNonContracting := [0]
  rhsNonContracting := [1]
  lhsBatch := []
  rhsBatch := []
  wf := dot_S500x256_S256x256_S500x256_1_0_0_1_n_n_wf
def dot_S500x256_S256x10_S500x10_1_0_0_1_n_n : DotDims S500x256 S256x10 S500x10 where
  lhsContracting := [1]
  rhsContracting := [0]
  lhsNonContracting := [0]
  rhsNonContracting := [1]
  lhsBatch := []
  rhsBatch := []
  wf := dot_S500x256_S256x10_S500x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v112) S500x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v113) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S256x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v114) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v115) S500x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x32 : Shape := ⟨2, ![50000, 32]⟩
abbrev S850000x32 : Shape := ⟨2, ![850000, 32]⟩
abbrev S1x32 : Shape := ⟨2, ![1, 32]⟩
abbrev S50000x64 : Shape := ⟨2, ![50000, 64]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩
abbrev S50000x256 : Shape := ⟨2, ![50000, 256]⟩
abbrev S850000x256 : Shape := ⟨2, ![850000, 256]⟩
abbrev S1x256 : Shape := ⟨2, ![1, 256]⟩
abbrev S500 : Shape := ⟨1, ![500]⟩
abbrev S50000x1 : Shape := ⟨2, ![50000, 1]⟩
abbrev S500x256 : Shape := ⟨2, ![500, 256]⟩
abbrev S500x1 : Shape := ⟨2, ![500, 1]⟩
abbrev S500x10 : Shape := ⟨2, ![500, 10]⟩
abbrev S1x10 : Shape := ⟨2, ![1, 10]⟩

abbrev nBuf : Space → Nat
  | .hbm => 170
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x32, .f32⟩
  | 4 => ⟨S32, .f32⟩
  | 5 => ⟨S32x64, .f32⟩
  | 6 => ⟨S64, .f32⟩
  | 7 => ⟨S64x128, .f32⟩
  | 8 => ⟨S128, .f32⟩
  | 9 => ⟨S128x256, .f32⟩
  | 10 => ⟨S256, .f32⟩
  | 11 => ⟨S256x256, .f32⟩
  | 12 => ⟨S256, .f32⟩
  | 13 => ⟨S256x10, .f32⟩
  | 14 => ⟨S10, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x32, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x32, .f32⟩
  | 61 => ⟨S850000x1, .f32⟩
  | 62 => ⟨S850000x32, .f32⟩
  | 63 => ⟨S850000x32, .f32⟩
  | 64 => ⟨S_, .f32⟩
  | 65 => ⟨S50000x32, .f32⟩
  | 66 => ⟨S850000x1, .i32⟩
  | 67 => ⟨S50000x32, .f32⟩
  | 68 => ⟨S1x32, .f32⟩
  | 69 => ⟨S50000x32, .f32⟩
  | 70 => ⟨S50000x32, .f32⟩
  | 71 => ⟨S_, .f32⟩
  | 72 => ⟨S50000x32, .f32⟩
  | 73 => ⟨S50000x32, .f32⟩
  | 74 => ⟨S50000x64, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x64, .f32⟩
  | 84 => ⟨S850000x1, .f32⟩
  | 85 => ⟨S850000x64, .f32⟩
  | 86 => ⟨S850000x64, .f32⟩
  | 87 => ⟨S_, .f32⟩
  | 88 => ⟨S50000x64, .f32⟩
  | 89 => ⟨S850000x1, .i32⟩
  | 90 => ⟨S50000x64, .f32⟩
  | 91 => ⟨S1x64, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S50000x128, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x1, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x256, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000x256, .f32⟩
  | 2 => ⟨S850000x1, .f32⟩
  | 3 => ⟨S850000x256, .f32⟩
  | 4 => ⟨S850000x256, .f32⟩
  | 5 => ⟨S_, .f32⟩
  | 6 => ⟨S50000x256, .f32⟩
  | 7 => ⟨S850000x1, .i32⟩
  | 8 => ⟨S50000x256, .f32⟩
  | 9 => ⟨S1x256, .f32⟩
  | 10 => ⟨S50000x256, .f32⟩
  | 11 => ⟨S50000x256, .f32⟩
  | 12 => ⟨S_, .f32⟩
  | 13 => ⟨S50000x256, .f32⟩
  | 14 => ⟨S50000x256, .f32⟩
  | 15 => ⟨S_, .f32⟩
  | 16 => ⟨S50000, .f32⟩
  | 17 => ⟨S_, .f32⟩
  | 18 => ⟨S500, .f32⟩
  | 19 => ⟨S50000x1, .i32⟩
  | 20 => ⟨S500, .f32⟩
  | 21 => ⟨S_, .f32⟩
  | 22 => ⟨S500x256, .f32⟩
  | 23 => ⟨S50000x1, .i32⟩
  | 24 => ⟨S500x256, .f32⟩
  | 25 => ⟨S_, .f32⟩
  | 26 => ⟨S500, .f32⟩
  | 27 => ⟨S500, .f32⟩
  | 28 => ⟨S500x1, .f32⟩
  | 29 => ⟨S500x256, .f32⟩
  | 30 => ⟨S500x256, .f32⟩
  | 31 => ⟨S500x256, .f32⟩
  | 32 => ⟨S1x256, .f32⟩
  | 33 => ⟨S500x256, .f32⟩
  | 34 => ⟨S500x256, .f32⟩
  | 35 => ⟨S_, .f32⟩
  | 36 => ⟨S500x256, .f32⟩
  | 37 => ⟨S500x256, .f32⟩
  | 38 => ⟨S500x10, .f32⟩
  | 39 => ⟨S1x10, .f32⟩
  | 40 => ⟨S500x10, .f32⟩
  | 41 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call0_cst : Ref sig .tc := ⟨.hbm, 71, rfl⟩
abbrev main_call0_v0 : Ref sig .tc := ⟨.hbm, 72, rfl⟩
abbrev main_v46 : Ref sig .tc := ⟨.hbm, 73, rfl⟩
abbrev main_v47 : Ref sig .tc := ⟨.hbm, 74, rfl⟩
abbrev main_c_8 : Ref sig .tc := ⟨.hbm, 75, rfl⟩
abbrev main_v48 : Ref sig .tc := ⟨.hbm, 76, rfl⟩
abbrev main_v49 : Ref sig .tc := ⟨.hbm, 77, rfl⟩
abbrev main_c_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call1_cst : Ref sig .tc := ⟨.hbm, 94, rfl⟩
abbrev main_call1_v0 : Ref sig .tc := ⟨.hbm, 95, rfl⟩
abbrev main_v64 : Ref sig .tc := ⟨.hbm, 96, rfl⟩
abbrev main_v65 : Ref sig .tc := ⟨.hbm, 97, rfl⟩
abbrev main_c_11 : Ref sig .tc := ⟨.hbm, 98, rfl⟩
abbrev main_v66 : Ref sig .tc := ⟨.hbm, 99, rfl⟩
abbrev main_v67 : Ref sig .tc := ⟨.hbm, 100, rfl⟩
abbrev main_c_12 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call2_cst : Ref sig .tc := ⟨.hbm, 117, rfl⟩
abbrev main_call2_v0 : Ref sig .tc := ⟨.hbm, 118, rfl⟩
abbrev main_v82 : Ref sig .tc := ⟨.hbm, 119, rfl⟩
abbrev main_v83 : Ref sig .tc := ⟨.hbm, 120, rfl⟩
abbrev main_c_14 : Ref sig .tc := ⟨.hbm, 121, rfl⟩
abbrev main_v84 : Ref sig .tc := ⟨.hbm, 122, rfl⟩
abbrev main_v85 : Ref sig .tc := ⟨.hbm, 123, rfl⟩
abbrev main_c_15 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_16 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call3_cst : Ref sig .tc := ⟨.hbm, 140, rfl⟩
abbrev main_call3_v0 : Ref sig .tc := ⟨.hbm, 141, rfl⟩
abbrev main_v100 : Ref sig .tc := ⟨.hbm, 142, rfl⟩
abbrev main_cst_17 : Ref sig .tc := ⟨.hbm, 143, rfl⟩
abbrev main_v101 : Ref sig .tc := ⟨.hbm, 144, rfl⟩
abbrev main_cst_18 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_19 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_20 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_call4_cst : Ref sig .tc := ⟨.hbm, 163, rfl⟩
abbrev main_call4_v0 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S500 : S_.BroadcastsInDim S500 (![] : Fin 0 → Fin S500.rank)
  bcast_S50000_S50000x1_0 : S50000.BroadcastsInDim S50000x1 (![0] : Fin 1 → Fin S50000x1.rank)
  bcast_S_S500x256 : S_.BroadcastsInDim S500x256 (![] : Fin 0 → Fin S500x256.rank)
  bcast_S500_S500x1_0 : S500.BroadcastsInDim S500x1 (![0] : Fin 1 → Fin S500x1.rank)
  bcast_S500x1_S500x256_0_1 : S500x1.BroadcastsInDim S500x256 (![0, 1] : Fin 2 → Fin S500x256.rank)
  bcast_S1x256_S500x256_0_1 : S1x256.BroadcastsInDim S500x256 (![0, 1] : Fin 2 → Fin S500x256.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x32_S50000x32_1_0_0_1_n_n_wf : DotDims.WF S50000x128 S128x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x64_S50000x64_1_0_0_1_n_n_wf : DotDims.WF S50000x32 S32x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S500_S50000x1_S50000_n_0_0_1_wf : ScatterDims.WF S500 S50000x1 S50000 [] [0] [0] 1
  scatter_S500x256_S50000x1_S50000x256_1_0_0_1_wf : ScatterDims.WF S500x256 S50000x1 S50000x256 [1] [0] [0] 1
  dot_S500x256_S256x256_S500x256_1_0_0_1_n_n_wf : DotDims.WF S500x256 S256x256 S500x256 [1] [0] [0] [1] [] []
  dot_S500x256_S256x10_S500x10_1_0_0_1_n_n_wf : DotDims.WF S500x256 S256x10 S500x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def scatter_S500x256_S50000x1_S50000x256_1_0_0_1 : ScatterDims S500x256 S50000x1 S50000x256 where
  updateWindowDims := [1]
  insertedWindowDims := [0]
  scatterDimsToOperandDims := [0]
  indexVectorDim := 1
  wf := scatter_S500x256_S50000x1_S50000x256_1_0_0_1_wf
def dot_S500x256_S256x256_S500x256_1_0_0_1_n_n : DotDims S500x256 S256x256 S500x256 where
  lhsContracting := [1]
  rhsContracting := [0]
  lhsNonContracting := [0]
  rhsNonContracting := [1]
  lhsBatch := []
  rhsBatch := []
  wf := dot_S500x256_S256x256_S500x256_1_0_0_1_n_n_wf
def dot_S500x256_S256x10_S500x10_1_0_0_1_n_n : DotDims S500x256 S256x10 S500x10 where
  lhsContracting := [1]
  rhsContracting := [0]
  lhsNonContracting := [0]
  rhsNonContracting := [1]
  lhsBatch := []
  rhsBatch := []
  wf := dot_S500x256_S256x10_S500x10_1_0_0_1_n_n_wf

class Facts : Prop extends Facts₀ where

variable [Facts]
-- ==== Proof.KernelRun.lean ====
/-
  The idealized kernel's run with its result named.

  @main is fifteen segments: ten stretches of host operations and five tiled regions. The launch theorem for such
  a program ends every core's thread holding each of its unscoped buffers at the contents a fold through the
  segments computes (`W15`: a stretch applies its operations, a region replaces its arrays by what its
  write-backs leave and keeps every other buffer). Reading the final state against that thread state gives, besides
  the fifteen argument arrays as launched, the result buffer `main_v115` at the fold's contents for it. What those
  contents are as a function of the arguments is read off the fold in the modules that import this one.
-/
import proofs.«107992_j2688649527319_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the fold's
    contents for it and every argument array as launched. -/
theorem run_named : θ_run defs (onTc (τ := τ) (main (F := F))) ⟨m, fun _ => 0, ρ⟩ (fun r => ∀ c : Dev nD,
      r.2.mem ((c.tc : Thread nD τ).loc main_v115) = W15 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v115 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c)⟩)

end Cert.KernelIdeal.Whole

end
-- ==== Proof.FoldBase.lean ====
/-
  Reading a buffer through a stretch of host operations that does not write it.

  The fold through @main's segments applies a stretch's operations in order; an operation changes its result buffer and
  nothing else. So a buffer that is no operation's result holds after the stretch what it held before it. The tactic
  below proves one such step for a literal stretch: it lists the stretch's result buffers and checks that the buffer in
  question is none of them.
-/
import proofs.«107992_j2688649527319_1_alg».proof.Proof.Gen.KernelIdeal.Frame

open Idealize.ShloMosaic

/-- One step of the fold at a buffer the named stretch does not write. -/
macro "unwritten_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.Products.lean ====
/-
  Whole-matrix operations over the extended reals, and the spellings they take in the two programs.

  `matProd X W` is the product of an [A,K] matrix with a [K,B] matrix: entry (a,b) is the sum over k of
  X(a,k) · W(k,b). `addRow M v` adds the B numbers of a vector to every row of an [A,B] matrix. `relu M` is the
  entrywise maximum with zero. Each spelling below is proved equal to one of these as a WHOLE array, at any extents:
  a product with one contracted axis, as the host's `dot_general` and as an accumulating tile product into a zero
  accumulator whose operands were first narrowed to bf16 (a change of float format is the identity on the
  extended reals); a bias vector laid out as a [1,B] row and stretched over the rows, by two host broadcasts and by
  a recast followed by a tile broadcast; the maximum with a stretched zero word, from a rank-0 constant and from a
  scalar splat. No law of arithmetic is used beyond "a product into a zero accumulator is the sum of the products", so
  nothing here needs the entries to be finite.
-/
import Idealize.ShloMosaic.PureOps.Ideal.Laws
import Idealize.ShloMosaic.Lib.ValueIdx
import Idealize.ShloMosaic.Lib.Pipeline.Value
import proofs.«107992_j2688649527319_1_alg».proof.Proof.LibColumnBlocks

noncomputable section

namespace Cert.Gnn

open Idealize.ShloMosaic Idealize.ShloMosaic.ValueIdx

/-- The product of an [A,K] matrix with a [K,B] matrix: entry (a,b) is the sum over k of X(a,k) · W(k,b). -/
def matProd {A K B : ℕ} (X : FVec Ideal ⟨2, ![A, K]⟩ .f32) (W : FVec Ideal ⟨2, ![K, B]⟩ .f32) : FVec Ideal ⟨2, ![A, B]⟩ .f32 :=
  fun i => ∑ k : Fin K, X (ix2 (i 0) k) * W (ix2 k (i 1))

/-- A vector of B numbers added to every row of an [A,B] matrix. -/
def addRow {A B : ℕ} (M : FVec Ideal ⟨2, ![A, B]⟩ .f32) (v : FVec Ideal ⟨1, ![B]⟩ .f32) : FVec Ideal ⟨2, ![A, B]⟩ .f32 :=
  fun i => M i + v (ix1 (i 1))

/-- The entrywise maximum with zero. -/
def relu {A B : ℕ} (M : FVec Ideal ⟨2, ![A, B]⟩ .f32) : FVec Ideal ⟨2, ![A, B]⟩ .f32 :=
  fun i => max (M i) 0

/-- Entry j of one product equals entry i of another when the row of the left operands and the column of the right
    operands that the two entries read agree. -/
theorem matProd_congr {A A' K B : ℕ} (x : FVec Ideal ⟨2, ![A', K]⟩ .f32) (w : FVec Ideal ⟨2, ![K, B]⟩ .f32)
    (X : FVec Ideal ⟨2, ![A, K]⟩ .f32) (W : FVec Ideal ⟨2, ![K, B]⟩ .f32)
    (j : (⟨2, ![A', B]⟩ : Shape).Idx) (i : (⟨2, ![A, B]⟩ : Shape).Idx)
    (hx : ∀ k : Fin K, x (ix2 (j 0) k) = X (ix2 (i 0) k)) (hw : ∀ k : Fin K, w (ix2 k (j 1)) = W (ix2 k (i 1))) :
    matProd x w j = matProd X W i :=
  Finset.sum_congr rfl fun k _ => by rw [hx k, hw k]

/-! ## Products -/

section Dot
variable {A K B : ℕ} (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- The host's product with one contracted axis is the matrix product. -/
theorem hostDot (X : FVec Ideal ⟨2, ![A, K]⟩ .f32) (W : FVec Ideal ⟨2, ![K, B]⟩ .f32) :
    Host.dotGeneral d none X W = matProd X W := by
  funext i
  obtain ⟨a, b, rfl⟩ : ∃ (a : Fin A) (b : Fin B), i = ix2 a b := ⟨i 0, i 1, eq_ix2 i⟩
  exact Cert.LibColumnBlocks.hostDot_apply d hr hs hlc hrc hl0 hr1 X W a b none

include hr hs hlc hrc hl0 hr1 in
/-- A tile product into a zero accumulator, its operands narrowed to bf16 first, is the matrix product. -/
theorem tileDot (h : FTy.bits .bf16 < FTy.bits .f32) (X : FVec Ideal ⟨2, ![A, K]⟩ .f32) (W : FVec Ideal ⟨2, ![K, B]⟩ .f32) :
    matmul d none (truncf .bf16 X h) (truncf .bf16 W h) (constant ⟨2, ![A, B]⟩ .f32 0x00000000#32) = matProd X W := by
  funext i
  obtain ⟨a, b, rfl⟩ : ∃ (a : Fin A) (b : Fin B), i = ix2 a b := ⟨i 0, i 1, eq_ix2 i⟩
  exact Cert.LibColumnBlocks.matmul_zero_apply d hr hs hlc hrc hl0 hr1 (truncf .bf16 X h) (truncf .bf16 W h) a b none

end Dot

/-! ## A bias vector over the rows -/

/-- A vector laid out as a [1,B] row by the host, read at (0,q). -/
theorem hostRow_apply {α : Type} {B : ℕ} (h1 : (⟨1, ![B]⟩ : Shape).BroadcastsInDim ⟨2, ![1, B]⟩ ![1])
    (v : (⟨1, ![B]⟩ : Shape).Idx → α) (z : Fin 1) (q : Fin B) :
    broadcastInDim ⟨2, ![1, B]⟩ ![1] h1 v (ix2 z q) = v (ix1 q) := by
  refine broadcastInDim_apply _ h1 v _ (ix1 q) fun a => ?_
  match a with
  | ⟨0, _⟩ =>
    show q.val = if B = 1 then 0 else q.val
    split
    · have := q.isLt; omega
    · rfl

/-- A [1,B] row stretched over A rows by the host, read at (a,q). -/
theorem hostStretch_apply {α : Type} {A B : ℕ} (h2 : (⟨2, ![1, B]⟩ : Shape).BroadcastsInDim ⟨2, ![A, B]⟩ ![0, 1])
    (r : (⟨2, ![1, B]⟩ : Shape).Idx → α) (a : Fin A) (q : Fin B) :
    broadcastInDim ⟨2, ![A, B]⟩ ![0, 1] h2 r (ix2 a q) = r (ix2 (0 : Fin 1) q) := by
  refine broadcastInDim_apply _ h2 r _ (ix2 (0 : Fin 1) q) fun c => ?_
  match c with
  | ⟨0, _⟩ => rfl
  | ⟨1, _⟩ =>
    show q.val = if B = 1 then 0 else q.val
    split
    · have := q.isLt; omega
    · rfl

/-- The host's bias: the vector laid out as a row, stretched over the rows, and added. -/
theorem hostAddRow {A B : ℕ} (h1 : (⟨1, ![B]⟩ : Shape).BroadcastsInDim ⟨2, ![1, B]⟩ ![1])
    (h2 : (⟨2, ![1, B]⟩ : Shape).BroadcastsInDim ⟨2, ![A, B]⟩ ![0, 1])
    (M : FVec Ideal ⟨2, ![A, B]⟩ .f32) (v : FVec Ideal ⟨1, ![B]⟩ .f32) :
    addf M (broadcastInDim ⟨2, ![A, B]⟩ ![0, 1] h2 (broadcastInDim ⟨2, ![1, B]⟩ ![1] h1 v)) = addRow M v := by
  funext i
  obtain ⟨a, q, rfl⟩ : ∃ (a : Fin A) (q : Fin B), i = ix2 a q := ⟨i 0, i 1, eq_ix2 i⟩
  rw [addf_apply, hostStretch_apply h2 _ a q, hostRow_apply h1 v 0 q]
  rfl

/-- A vector recast as a [1,B] row, read at (0,q). -/
theorem castRow_apply {α : Type} {B : ℕ} (hc : (⟨1, ![B]⟩ : Shape).ShapeCasts ⟨2, ![1, B]⟩)
    (v : (⟨1, ![B]⟩ : Shape).Idx → α) (z : Fin 1) (q : Fin B) :
    shapeCast ⟨2, ![1, B]⟩ v hc (ix2 z q) = v (ix1 q) := by
  refine shapeCast_apply v hc _ (ix1 q) ?_
  rw [Shape.rowMajor_val_one, Shape.rowMajor_val_two]
  show q.val = z.val * B + q.val
  have := z.isLt
  have hz : z.val = 0 := by omega
  rw [hz, Nat.zero_mul, Nat.zero_add]

/-- A [1,B] row stretched over A rows inside a tile, read at (a,q). -/
theorem tileStretch_apply {α : Type} {A B : ℕ} (hb : (⟨2, ![1, B]⟩ : Shape).Broadcasts ⟨2, ![A, B]⟩)
    (r : (⟨2, ![1, B]⟩ : Shape).Idx → α) (a : Fin A) (q : Fin B) :
    broadcastTo ⟨2, ![A, B]⟩ r hb (ix2 a q) = r (ix2 (0 : Fin 1) q) := by
  refine broadcastTo_apply r hb _ (ix2 (0 : Fin 1) q) fun c => ?_
  match c with
  | ⟨0, _⟩ => rfl
  | ⟨1, _⟩ =>
    show q.val = if B = 1 then 0 else q.val
    split
    · have := q.isLt; omega
    · rfl

/-- The tile's bias: the vector recast as a row outside, carried in as a [1,B] block, stretched over the tile's rows, added. -/
theorem tileAddRow {A B : ℕ} (hc : (⟨1, ![B]⟩ : Shape).ShapeCasts ⟨2, ![1, B]⟩)
    (hs : (⟨2, ![1, B]⟩ : Shape).ShapeCasts ⟨2, ![1, B]⟩) (hb : (⟨2, ![1, B]⟩ : Shape).Broadcasts ⟨2, ![A, B]⟩)
    (M : FVec Ideal ⟨2, ![A, B]⟩ .f32) (v : FVec Ideal ⟨1, ![B]⟩ .f32) :
    addf M (broadcastTo ⟨2, ![A, B]⟩ (shapeCast ⟨2, ![1, B]⟩ (shapeCast ⟨2, ![1, B]⟩ v hc : FVec Ideal ⟨2, ![1, B]⟩ .f32) hs) hb) = addRow M v := by
  funext i
  obtain ⟨a, q, rfl⟩ : ∃ (a : Fin A) (q : Fin B), i = ix2 a q := ⟨i 0, i 1, eq_ix2 i⟩
  rw [addf_apply, tileStretch_apply hb _ a q, shapeCast_self, castRow_apply hc v 0 q]
  rfl

/-! ## The maximum with zero -/

/-- The host's relu: the maximum with a rank-0 zero constant stretched to the matrix's shape. -/
theorem hostRelu {A B : ℕ} (h : (⟨0, ![]⟩ : Shape).BroadcastsInDim ⟨2, ![A, B]⟩ ![])
    (M : FVec Ideal ⟨2, ![A, B]⟩ .f32) :
    maximumf M (broadcastInDim ⟨2, ![A, B]⟩ ![] h (constant (F := Ideal) ⟨0, ![]⟩ .f32 0x00000000#32)) = relu M := by
  funext i
  rw [maximumf_apply, broadcastInDim_apply _ h _ i ix0 (fun a => a.elim0), constant_apply, Ideal.ofBits_zero_f32]
  rfl

/-- The tile's relu: the maximum with a zero scalar splat to the tile's shape. -/
theorem tileRelu {A B : ℕ} (M : FVec Ideal ⟨2, ![A, B]⟩ .f32) :
    maximumf M (broadcast ⟨2, ![A, B]⟩ (Scalar.ofBits (F := Ideal) .f32 0x00000000#32)) = relu M := by
  funext i
  rw [maximumf_apply, broadcast_apply]
  show max (M i) (Ideal.ofBits .f32 0x00000000#32) = max (M i) 0
  rw [Ideal.ofBits_zero_f32]

end Cert.Gnn

end
-- ==== Proof.Region0.lean ====
/-
  Region 0: a projection of the node features, tiled along the node axis.

  The region's first window walks the [50000,128] feature matrix in ten tiles of 5000 rows, its second window holds
  the whole [128,32] weight matrix at every grid point, and its output window writes tile t of the [50000,32]
  result. Inside a tile the body narrows both operands to bf16 and accumulates their product into zeros, which on the
  extended reals is the plain matrix product of the tile's rows with the weights. Row r of the result therefore
  depends on row r of the features alone: tile t of the product of the whole matrices is the product of tile t's
  rows, and since the ten tiles cover rows 0 … 49999 the output array ends as the whole product, whatever the
  buffers held when the region was entered.
-/
import proofs.«107992_j2688649527319_1_alg».proof.Proof.Gen.KernelIdeal.Frame
import proofs.«107992_j2688649527319_1_alg».proof.Proof.Products

set_option maxRecDepth 16384

noncomputable section

namespace Cert.KernelIdeal.Tiles0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-! ## The tile's arithmetic -/

/-- The tile product's left operand is read at the result's row. -/
theorem lhs_row (j : S5000x32.Idx) (q : dot_S5000x128_S128x32_S5000x32_1_0_0_1_n_n.contr.Idx) :
    (dot_S5000x128_S128x32_S5000x32_1_0_0_1_n_n.lhsIdx j q 0).val = (j 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl

/-- The tile product's right operand is read at the result's column. -/
theorem rhs_col (j : S5000x32.Idx) (q : dot_S5000x128_S128x32_S5000x32_1_0_0_1_n_n.contr.Idx) :
    (dot_S5000x128_S128x32_S5000x32_1_0_0_1_n_n.rhsIdx j q 1).val = (j 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- What a grid point stores: the product of its 5000 rows with the weights. -/
theorem tile_eq (x0 : Vec Ideal S5000x128 .f32) (x1 : Vec Ideal S128x32 .f32) :
    k0_pay1 x0 x1 = Cert.Gnn.matProd (A := 5000) (K := 128) (B := 32) x0 x1 := by
  unfold k0_pay1
  exact Cert.Gnn.tileDot dot_S5000x128_S128x32_S5000x32_1_0_0_1_n_n rfl rfl rfl rfl lhs_row rhs_col bitsLt_bf16_f32 x0 x1

/-! ## From tiles to the array -/

/-- The printed index maps over the ten grid points: the feature window and the output window sit at the same tile
    of rows, all columns; the weight window never moves. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every tile of rows is some grid point's. -/
theorem index_onto : ∀ q : Fin 10, ∃ t : Fin cfg0.N, win0_2.index t = ![q.val, 0] :=
  (by decide +kernel : ∀ q : Fin 10, ∃ t : Fin grid0.N, win0_2.index t = ![q.val, 0])

/-- What point t writes back is tile t of the whole product of the arrays the region was entered with. -/
theorem flushed_eq (c : Dev nD) (t : Fin cfg0.N) :
    (dat0 V c).flushed 2 t = ((cfg0.win 2).blk t).view.read (Elt Ideal)
      (Cert.Gnn.matProd (A := 50000) (K := 128) (B := 32) (V c main_arg0) (V c main_arg3)) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x32) offsets_zero]
  rw [tile_eq]
  obtain ⟨e0, e1, e2, e3, e4, e5⟩ := index_facts t
  funext j
  show Cert.Gnn.matProd (A := 5000) (K := 128) (B := 32) (iblk0 V c 0 t) (iblk0 V c 1 t) j
    = Cert.Gnn.matProd (A := 50000) (K := 128) (B := 32) (V c main_arg0) (V c main_arg3) (((cfg0.win 2).blk t).view.emb j)
  refine Cert.Gnn.matProd_congr (A := 50000) (A' := 5000) (K := 128) (B := 32) _ _ _ _ j _ (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 2).blk t).view.emb j) 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 32 + 1 * (j 1).val = win0_2.index t (1 : Fin 2) * 32 + 1 * (j 1).val; omega

/-- An index of the output array is in point t's tile iff each coordinate is in the tile's range on its axis. -/
theorem mem_tile (t : Fin cfg0.N) (i : S50000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v29).slice (win0_2.rect t)).set ↔ _
  rw [View.set_slice_whole, Rect.mem_set_unit]
  exact Iff.rfl

/-- The ten tiles cover the output array: row r is in tile r / 5000. -/
theorem covered (i : S50000x32.Idx) :
    ∃ t : Fin cfg0.N, (cfg0.win 2).flush t = true ∧ i ∈ ((cfg0.win 2).blk t).view.set := by
  have hi0 : (i 0).val < 50000 := (i 0).isLt
  have hi1 : (i 1).val < 32 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- THE REGION'S VALUE: its output array ends as the product of the two arrays it was entered with. -/
theorem value (c : Dev nD) :
    (dat0 V c).arrAt 2 cfg0.N = Cert.Gnn.matProd (A := 50000) (K := 128) (B := 32) (V c main_arg0) (V c main_arg3) :=
  (dat0 V c).arrAt_eq_of_cover 2 _ (fun t _ => flushed_eq V c t) covered

end Cert.KernelIdeal.Tiles0

end
-- ==== Proof.Fold0.lean ====
/-
  The fold up to region 0's exit.

  The first stretch of host operations builds, from the edge list alone, the source and destination node of every
  edge with one loop per node appended, and the symmetric normalisation rsqrt(max(deg,1))[src] · rsqrt(max(deg,1))[dst]
  of every edge. These are the same operations, in the same order and with the same constants, as the reference's
  first operations, so the three buffers hold the reference's values for them. Region 0 then leaves the product of
  the node features with the first weight matrix, which is what the reference's first matrix product computes.
-/
import proofs.«107992_j2688649527319_1_alg».proof.Proof.FoldBase
import proofs.«107992_j2688649527319_1_alg».proof.Proof.Region0
import proofs.«107992_j2688649527319_1_alg».proof.Proof.Gen.ReferenceIdeal.Read

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- Every edge's source node, loops appended. -/
theorem src_eq : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  simp only [hostOps0]
  after_results_simp
  rfl

/-- Every edge's destination node, loops appended. -/
theorem dst_eq : W1 m ρ c (Proc.devRef .tc main_v6)
    = Cert.ReferenceIdeal.Read.val_main_v6 (F := Ideal) (m ((c : Thread nD τ).loc main_arg1)) := by
  show StableHlo.after hostOps0 (W0 m ρ c) (Proc.devRef .tc main_v6) = _
  simp only [hostOps0]
  after_results_simp
  rfl

/-- Every edge's normalisation. -/
theorem norm_eq : W1 m ρ c (Proc.devRef .tc main_v28)
    = Cert.ReferenceIdeal.Read.val_main_v28 (F := Ideal) (m ((c : Thread nD τ).loc main_arg1)) := by
  show StableHlo.after hostOps0 (W0 m ρ c) (Proc.devRef .tc main_v28) = _
  simp only [hostOps0]
  after_results_simp
  rfl

theorem x0_eq : W1 m ρ c (Proc.devRef .tc main_arg0) = m ((c : Thread nD τ).loc main_arg0) := by
  refine Eq.trans ?_ (rfl : W0 m ρ c (Proc.devRef .tc main_arg0) = _)
  unwritten_by hostOps0

theorem w0_eq : W1 m ρ c (Proc.devRef .tc main_arg3) = m ((c : Thread nD τ).loc main_arg3) := by
  refine Eq.trans ?_ (rfl : W0 m ρ c (Proc.devRef .tc main_arg3) = _)
  unwritten_by hostOps0

/-- Region 0 leaves the reference's first projection. -/
theorem proj0_eq : W2 m ρ c (Proc.devRef .tc main_v29)
    = Cert.ReferenceIdeal.Read.val_main_v29 (F := Ideal) (m ((c : Thread nD τ).loc main_arg0)) (m ((c : Thread nD τ).loc main_arg3)) := by
  refine (W2_arr m ρ c 2).trans ?_
  rw [Cert.KernelIdeal.Tiles0.value (V1 m ρ) c]
  show Cert.Gnn.matProd (A := 50000) (K := 128) (B := 32) (W1 m ρ c (Proc.devRef .tc main_arg0)) (W1 m ρ c (Proc.devRef .tc main_arg3)) = _
  rw [x0_eq, w0_eq]
  unfold Cert.ReferenceIdeal.Read.val_main_v29
  exact (Cert.Gnn.hostDot Cert.ReferenceIdeal.dot_S50000x128_S128x32_S50000x32_1_0_0_1_n_n rfl rfl rfl rfl
    Cert.ReferenceIdeal.Read.lhs_main_v29_0 Cert.ReferenceIdeal.Read.rhs_main_v29_1 _ _).symm

end Cert.KernelIdeal.Fold

end
-- ==== Proof.KeepEdges.lean ====
/-
  The edge arrays read through the fold.

  The source nodes, the destination nodes and the normalisations of the edges are computed once, before the first
  region, and read again by every layer's gather, scaling and scatter. No later host operation writes them and they are
  no region's array, so at every later boundary up to the last layer they still hold the reference's values for them.
-/
import proofs.«107992_j2688649527319_1_alg».proof.Proof.Fold0

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

theorem v3_W1 : W1 m ρ c (Proc.devRef .tc main_v3) = Cert.ReferenceIdeal.Read.val_main_v3 (F := Ideal) (m ((c : Thread nD τ).loc main_arg1)) := src_eq m ρ c
theorem v3_W2 : W2 m ρ c (Proc.devRef .tc main_v3) = Cert.ReferenceIdeal.Read.val_main_v3 (F := Ideal) (m ((c : Thread nD τ).loc main_arg1)) := by
  refine Eq.trans ?_ (v3_W1 m ρ c)
  exact W2_of_ne m ρ c main_v3 (by decide)
theorem v3_W3 : W3 m ρ c (Proc.devRef .tc main_v3) = Cert.ReferenceIdeal.Read.val_main_v3 (F := Ideal) (m ((c : Thread nD τ).loc main_arg1)) := by
  refine Eq.trans ?_ (v3_W2 m ρ c)
  unwritten_by hostOps1
theorem v3_W4 : W4 m ρ c (Proc.devRef .tc main_v3) = Cert.ReferenceIdeal.Read.val_main_v3 (F := Ideal) (m ((c : Thread nD τ).loc main_arg1)) := by
  refine Eq.trans ?_ (v3_W3 m ρ c)
  unwritten_by hostOps1_1
theorem v3_W5 : W5 m ρ c (Proc.devRef .tc main_v3) = Cert.ReferenceIdeal.Read.val_main_v3 (F := Ideal) (m ((c : Thread nD τ).loc main_arg1)) := by
  refine Eq.trans ?_ (v3_W4 m ρ c)
  exact W5_of_ne m ρ c main_v3 (by decide)
theorem v3_W6 : W6 m ρ c (Proc.devRef .tc main_v3) = Cert.ReferenceIdeal.Read.val_main_v3 (F := Ideal) (m ((c : Thread nD τ).loc main_arg1)) := by
  refine Eq.trans ?_ (v3_W5 m ρ c)
  unwritten_by hostOps2
theorem v3_W7 : W7 m ρ c (Proc.devRef .tc main_v3) = Cert.ReferenceIdeal.Read.val_main_v3 (F := Ideal) (m ((c : Thread nD τ).loc main_arg1)) := by
  refine Eq.trans ?_ (v3_W6 m ρ c)
  unwritten_by hostOps2_1
theorem v3_W8 : W8 m ρ c (Proc.devRef .tc main_v3) = Cert.ReferenceIdeal.Read.val_main_v3 (F := Ideal) (m ((c : Thread nD τ).loc main_arg1)) := by
  refine Eq.trans ?_ (v3_W7 m ρ c)
  exact W8_of_ne m ρ c main_v3 (by decide)
theorem v3_W9 : W9 m ρ c (Proc.devRef .tc main_v3) = Cert.ReferenceIdeal.Read.val_main_v3 (F := Ideal) (m ((c : Thread nD τ).loc main_arg1)) := by
  refine Eq.trans ?_ (v3_W8 m ρ c)
  unwritten_by hostOps3
theorem v3_W10 : W10 m ρ c (Proc.devRef .tc main_v3) = Cert.ReferenceIdeal.Read.val_main_v3 (F := Ideal) (m ((c : Thread nD τ).loc main_arg1)) := by
  refine Eq.trans ?_ (v3_W9 m ρ c)
  unwritten_by hostOps3_1
theorem v3_W11 : W11 m ρ c (Proc.devRef .tc main_v3) = Cert.ReferenceIdeal.Read.val_main_v3 (F := Ideal) (m ((c : Thread nD τ).loc main_arg1)) := by
  refine Eq.trans ?_ (v3_W10 m ρ c)
  exact W11_of_ne m ρ c main_v3 (by decide)

theorem v6_W1 : W1 m ρ c (Proc.devRef .tc main_v6) = Cert.ReferenceIdeal.Read.val_main_v6 (F := Ideal) (m ((c : Thread nD τ).loc main_arg1)) := dst_eq m ρ c
theorem v6_W2 : W2 m ρ c (Proc.devRef .tc main_v6) = Cert.ReferenceIdeal.Read.val_main_v6 (F := Ideal) (m ((c : Thread nD τ).loc main_arg1)) := by
  refine Eq.trans ?_ (v6_W1 m ρ c)
  exact W2_of_ne m ρ c main_v6 (by decide)
theorem v6_W3 : W3 m ρ c (Proc.devRef .tc main_v6) = Cert.ReferenceIdeal.Read.val_main_v6 (F := Ideal) (m ((c : Thread nD τ).loc main_arg1)) := by
  refine Eq.trans ?_ (v6_W2 m ρ c)
  unwritten_by hostOps1
theorem v6_W4 : W4 m ρ c (Proc.devRef .tc main_v6) = Cert.ReferenceIdeal.Read.val_main_v6 (F := Ideal) (m ((c : Thread nD τ).loc main_arg1)) := by
  refine Eq.trans ?_ (v6_W3 m ρ c)
  unwritten_by hostOps1_1
theorem v6_W5 : W5 m ρ c (Proc.devRef .tc main_v6) = Cert.ReferenceIdeal.Read.val_main_v6 (F := Ideal) (m ((c : Thread nD τ).loc main_arg1)) := by
  refine Eq.trans ?_ (v6_W4 m ρ c)
  exact W5_of_ne m ρ c main_v6 (by decide)
theorem v6_W6 : W6 m ρ c (Proc.devRef .tc main_v6) = Cert.ReferenceIdeal.Read.val_main_v6 (F := Ideal) (m ((c : Thread nD τ).loc main_arg1)) := by
  refine Eq.trans ?_ (v6_W5 m ρ c)
  unwritten_by hostOps2
theorem v6_W7 : W7 m ρ c (Proc.devRef .tc main_v6) = Cert.ReferenceIdeal.Read.val_main_v6 (F := Ideal) (m ((c : Thread nD τ).loc main_arg1)) := by
  refine Eq.trans ?_ (v6_W6 m ρ c)
  unwritten_by hostOps2_1
theorem v6_W8 : W8 m ρ c (Proc.devRef .tc main_v6) = Cert.ReferenceIdeal.Read.val_main_v6 (F := Ideal) (m ((c : Thread nD τ).loc main_arg1)) := by
  refine Eq.trans ?_ (v6_W7 m ρ c)
  exact W8_of_ne m ρ c main_v6 (by decide)
theorem v6_W9 : W9 m ρ c (Proc.devRef .tc main_v6) = Cert.ReferenceIdeal.Read.val_main_v6 (F := Ideal) (m ((c : Thread nD τ).loc main_arg1)) := by
  refine Eq.trans ?_ (v6_W8 m ρ c)
  unwritten_by hostOps3
theorem v6_W10 : W10 m ρ c (Proc.devRef .tc main_v6) = Cert.ReferenceIdeal.Read.val_main_v6 (F := Ideal) (m ((c : Thread nD τ).loc main_arg1)) := by
  refine Eq.trans ?_ (v6_W9 m ρ c)
  unwritten_by hostOps3_1
theorem v6_W11 : W11 m ρ c (Proc.devRef .tc main_v6) = Cert.ReferenceIdeal.Read.val_main_v6 (F := Ideal) (m ((c : Thread nD τ).loc main_arg1)) := by
  refine Eq.trans ?_ (v6_W10 m ρ c)
  exact W11_of_ne m ρ c main_v6 (by decide)

theorem v28_W1 : W1 m ρ c (Proc.devRef .tc main_v28) = Cert.ReferenceIdeal.Read.val_main_v28 (F := Ideal) (m ((c : Thread nD τ).loc main_arg1)) := norm_eq m ρ c
theorem v28_W2 : W2 m ρ c (Proc.devRef .tc main_v28) = Cert.ReferenceIdeal.Read.val_main_v28 (F := Ideal) (m ((c : Thread nD τ).loc main_arg1)) := by
  refine Eq.trans ?_ (v28_W1 m ρ c)
  exact W2_of_ne m ρ c main_v28 (by decide)
theorem v28_W3 : W3 m ρ c (Proc.devRef .tc main_v28) = Cert.ReferenceIdeal.Read.val_main_v28 (F := Ideal) (m ((c : Thread nD τ).loc main_arg1)) := by
  refine Eq.trans ?_ (v28_W2 m ρ c)
  unwritten_by hostOps1
theorem v28_W4 : W4 m ρ c (Proc.devRef .tc main_v28) = Cert.ReferenceIdeal.Read.val_main_v28 (F := Ideal) (m ((c : Thread nD τ).loc main_arg1)) := by
  refine Eq.trans ?_ (v28_W3 m ρ c)
  unwritten_by hostOps1_1
theorem v28_W5 : W5 m ρ c (Proc.devRef .tc main_v28) = Cert.ReferenceIdeal.Read.val_main_v28 (F := Ideal) (m ((c : Thread nD τ).loc main_arg1)) := by
  refine Eq.trans ?_ (v28_W4 m ρ c)
  exact W5_of_ne m ρ c main_v28 (by decide)
theorem v28_W6 : W6 m ρ c (Proc.devRef .tc main_v28) = Cert.ReferenceIdeal.Read.val_main_v28 (F := Ideal) (m ((c : Thread nD τ).loc main_arg1)) := by
  refine Eq.trans ?_ (v28_W5 m ρ c)
  unwritten_by hostOps2
theorem v28_W7 : W7 m ρ c (Proc.devRef .tc main_v28) = Cert.ReferenceIdeal.Read.val_main_v28 (F := Ideal) (m ((c : Thread nD τ).loc main_arg1)) := by
  refine Eq.trans ?_ (v28_W6 m ρ c)
  unwritten_by hostOps2_1
theorem v28_W8 : W8 m ρ c (Proc.devRef .tc main_v28) = Cert.ReferenceIdeal.Read.val_main_v28 (F := Ideal) (m ((c : Thread nD τ).loc main_arg1)) := by
  refine Eq.trans ?_ (v28_W7 m ρ c)
  exact W8_of_ne m ρ c main_v28 (by decide)
theorem v28_W9 : W9 m ρ c (Proc.devRef .tc main_v28) = Cert.ReferenceIdeal.Read.val_main_v28 (F := Ideal) (m ((c : Thread nD τ).loc main_arg1)) := by
  refine Eq.trans ?_ (v28_W8 m ρ c)
  unwritten_by hostOps3
theorem v28_W10 : W10 m ρ c (Proc.devRef .tc main_v28) = Cert.ReferenceIdeal.Read.val_main_v28 (F := Ideal) (m ((c : Thread nD τ).loc main_arg1)) := by
  refine Eq.trans ?_ (v28_W9 m ρ c)
  unwritten_by hostOps3_1
theorem v28_W11 : W11 m ρ c (Proc.devRef .tc main_v28) = Cert.ReferenceIdeal.Read.val_main_v28 (F := Ideal) (m ((c : Thread nD τ).loc main_arg1)) := by
  refine Eq.trans ?_ (v28_W10 m ρ c)
  exact W11_of_ne m ρ c main_v28 (by decide)

end Cert.KernelIdeal.Fold

end
-- ==== Proof.KeepArgs.lean ====
/-
  The argument arrays read through the fold.

  No host operation writes an argument of @main, and a region writes only its output window's array. So at every
  boundary of the fold an argument's buffer holds what it held at launch. Stated for each argument at each boundary
  from the launch up to the segment that reads it (a bias in the stretch after its layer's projection, a weight matrix
  at its region's entry, the graph assignment and the head's parameters near the end).
-/
import proofs.«107992_j2688649527319_1_alg».proof.Proof.FoldBase
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

theorem arg2_W0 : W0 m ρ c (Proc.devRef .tc main_arg2) = m ((c : Thread nD τ).loc main_arg2) := rfl
theorem arg2_W1 : W1 m ρ c (Proc.devRef .tc main_arg2) = m ((c : Thread nD τ).loc main_arg2) := by
  refine Eq.trans ?_ (arg2_W0 m ρ c)
  unwritten_by hostOps0
theorem arg2_W2 : W2 m ρ c (Proc.devRef .tc main_arg2) = m ((c : Thread nD τ).loc main_arg2) := by
  refine Eq.trans ?_ (arg2_W1 m ρ c)
  exact W2_of_ne m ρ c main_arg2 (by decide)
theorem arg2_W3 : W3 m ρ c (Proc.devRef .tc main_arg2) = m ((c : Thread nD τ).loc main_arg2) := by
  refine Eq.trans ?_ (arg2_W2 m ρ c)
  unwritten_by hostOps1
theorem arg2_W4 : W4 m ρ c (Proc.devRef .tc main_arg2) = m ((c : Thread nD τ).loc main_arg2) := by
  refine Eq.trans ?_ (arg2_W3 m ρ c)
  unwritten_by hostOps1_1
theorem arg2_W5 : W5 m ρ c (Proc.devRef .tc main_arg2) = m ((c : Thread nD τ).loc main_arg2) := by
  refine Eq.trans ?_ (arg2_W4 m ρ c)
  exact W5_of_ne m ρ c main_arg2 (by decide)
theorem arg2_W6 : W6 m ρ c (Proc.devRef .tc main_arg2) = m ((c : Thread nD τ).loc main_arg2) := by
  refine Eq.trans ?_ (arg2_W5 m ρ c)
  unwritten_by hostOps2
theorem arg2_W7 : W7 m ρ c (Proc.devRef .tc main_arg2) = m ((c : Thread nD τ).loc main_arg2) := by
  refine Eq.trans ?_ (arg2_W6 m ρ c)
  unwritten_by hostOps2_1
theorem arg2_W8 : W8 m ρ c (Proc.devRef .tc main_arg2) = m ((c : Thread nD τ).loc main_arg2) := by
  refine Eq.trans ?_ (arg2_W7 m ρ c)
  exact W8_of_ne m ρ c main_arg2 (by decide)
theorem arg2_W9 : W9 m ρ c (Proc.devRef .tc main_arg2) = m ((c : Thread nD τ).loc main_arg2) := by
  refine Eq.trans ?_ (arg2_W8 m ρ c)
  unwritten_by hostOps3
theorem arg2_W10 : W10 m ρ c (Proc.devRef .tc main_arg2) = m ((c : Thread nD τ).loc main_arg2) := by
  refine Eq.trans ?_ (arg2_W9 m ρ c)
  unwritten_by hostOps3_1
theorem arg2_W11 : W11 m ρ c (Proc.devRef .tc main_arg2) = m ((c : Thread nD τ).loc main_arg2) := by
  refine Eq.trans ?_ (arg2_W10 m ρ c)
  exact W11_of_ne m ρ c main_arg2 (by decide)
theorem arg2_W12 : W12 m ρ c (Proc.devRef .tc main_arg2) = m ((c : Thread nD τ).loc main_arg2) := by
  refine Eq.trans ?_ (arg2_W11 m ρ c)
  unwritten_by hostOps4
theorem arg2_W13 : W13 m ρ c (Proc.devRef .tc main_arg2) = m ((c : Thread nD τ).loc main_arg2) := by
  refine Eq.trans ?_ (arg2_W12 m ρ c)
  unwritten_by hostOps4_1

theorem arg4_W0 : W0 m ρ c (Proc.devRef .tc main_arg4) = m ((c : Thread nD τ).loc main_arg4) := rfl
theorem arg4_W1 : W1 m ρ c (Proc.devRef .tc main_arg4) = m ((c : Thread nD τ).loc main_arg4) := by
  refine Eq.trans ?_ (arg4_W0 m ρ c)
  unwritten_by hostOps0
theorem arg4_W2 : W2 m ρ c (Proc.devRef .tc main_arg4) = m ((c : Thread nD τ).loc main_arg4) := by
  refine Eq.trans ?_ (arg4_W1 m ρ c)
  exact W2_of_ne m ρ c main_arg4 (by decide)

theorem arg5_W0 : W0 m ρ c (Proc.devRef .tc main_arg5) = m ((c : Thread nD τ).loc main_arg5) := rfl
theorem arg5_W1 : W1 m ρ c (Proc.devRef .tc main_arg5) = m ((c : Thread nD τ).loc main_arg5) := by
  refine Eq.trans ?_ (arg5_W0 m ρ c)
  unwritten_by hostOps0
theorem arg5_W2 : W2 m ρ c (Proc.devRef .tc main_arg5) = m ((c : Thread nD τ).loc main_arg5) := by
  refine Eq.trans ?_ (arg5_W1 m ρ c)
  exact W2_of_ne m ρ c main_arg5 (by decide)
theorem arg5_W3 : W3 m ρ c (Proc.devRef .tc main_arg5) = m ((c : Thread nD τ).loc main_arg5) := by
  refine Eq.trans ?_ (arg5_W2 m ρ c)
  unwritten_by hostOps1
theorem arg5_W4 : W4 m ρ c (Proc.devRef .tc main_arg5) = m ((c : Thread nD τ).loc main_arg5) := by
  refine Eq.trans ?_ (arg5_W3 m ρ c)
  unwritten_by hostOps1_1

theorem arg6_W0 : W0 m ρ c (Proc.devRef .tc main_arg6) = m ((c : Thread nD τ).loc main_arg6) := rfl
theorem arg6_W1 : W1 m ρ c (Proc.devRef .tc main_arg6) = m ((c : Thread nD τ).loc main_arg6) := by
  refine Eq.trans ?_ (arg6_W0 m ρ c)
  unwritten_by hostOps0
theorem arg6_W2 : W2 m ρ c (Proc.devRef .tc main_arg6) = m ((c : Thread nD τ).loc main_arg6) := by
  refine Eq.trans ?_ (arg6_W1 m ρ c)
  exact W2_of_ne m ρ c main_arg6 (by decide)
theorem arg6_W3 : W3 m ρ c (Proc.devRef .tc main_arg6) = m ((c : Thread nD τ).loc main_arg6) := by
  refine Eq.trans ?_ (arg6_W2 m ρ c)
  unwritten_by hostOps1
theorem arg6_W4 : W4 m ρ c (Proc.devRef .tc main_arg6) = m ((c : Thread nD τ).loc main_arg6) := by
  refine Eq.trans ?_ (arg6_W3 m ρ c)
  unwritten_by hostOps1_1
theorem arg6_W5 : W5 m ρ c (Proc.devRef .tc main_arg6) = m ((c : Thread nD τ).loc main_arg6) := by
  refine Eq.trans ?_ (arg6_W4 m ρ c)
  exact W5_of_ne m ρ c main_arg6 (by decide)

theorem arg7_W0 : W0 m ρ c (Proc.devRef .tc main_arg7) = m ((c : Thread nD τ).loc main_arg7) := rfl
theorem arg7_W1 : W1 m ρ c (Proc.devRef .tc main_arg7) = m ((c : Thread nD τ).loc main_arg7) := by
  refine Eq.trans ?_ (arg7_W0 m ρ c)
  unwritten_by hostOps0
theorem arg7_W2 : W2 m ρ c (Proc.devRef .tc main_arg7) = m ((c : Thread nD τ).loc main_arg7) := by
  refine Eq.trans ?_ (arg7_W1 m ρ c)
  exact W2_of_ne m ρ c main_arg7 (by decide)
theorem arg7_W3 : W3 m ρ c (Proc.devRef .tc main_arg7) = m ((c : Thread nD τ).loc main_arg7) := by
  refine Eq.trans ?_ (arg7_W2 m ρ c)
  unwritten_by hostOps1
theorem arg7_W4 : W4 m ρ c (Proc.devRef .tc main_arg7) = m ((c : Thread nD τ).loc main_arg7) := by
  refine Eq.trans ?_ (arg7_W3 m ρ c)
  unwritten_by hostOps1_1
theorem arg7_W5 : W5 m ρ c (Proc.devRef .tc main_arg7) = m ((c : Thread nD τ).loc main_arg7) := by
  refine Eq.trans ?_ (arg7_W4 m ρ c)
  exact W5_of_ne m ρ c main_arg7 (by decide)
theorem arg7_W6 : W6 m ρ c (Proc.devRef .tc main_arg7) = m ((c : Thread nD τ).loc main_arg7) := by
  refine Eq.trans ?_ (arg7_W5 m ρ c)
  unwritten_by hostOps2
theorem arg7_W7 : W7 m ρ c (Proc.devRef .tc main_arg7) = m ((c : Thread nD τ).loc main_arg7) := by
  refine Eq.trans ?_ (arg7_W6 m ρ c)
  unwritten_by hostOps2_1

theorem arg8_W0 : W0 m ρ c (Proc.devRef .tc main_arg8) = m ((c : Thread nD τ).loc main_arg8) := rfl
theorem arg8_W1 : W1 m ρ c (Proc.devRef .tc main_arg8) = m ((c : Thread nD τ).loc main_arg8) := by
  refine Eq.trans ?_ (arg8_W0 m ρ c)
  unwritten_by hostOps0
theorem arg8_W2 : W2 m ρ c (Proc.devRef .tc main_arg8) = m ((c : Thread nD τ).loc main_arg8) := by
  refine Eq.trans ?_ (arg8_W1 m ρ c)
  exact W2_of_ne m ρ c main_arg8 (by decide)
theorem arg8_W3 : W3 m ρ c (Proc.devRef .tc main_arg8) = m ((c : Thread nD τ).loc main_arg8) := by
  refine Eq.trans ?_ (arg8_W2 m ρ c)
  unwritten_by hostOps1
theorem arg8_W4 : W4 m ρ c (Proc.devRef .tc main_arg8) = m ((c : Thread nD τ).loc main_arg8) := by
  refine Eq.trans ?_ (arg8_W3 m ρ c)
  unwritten_by hostOps1_1
theorem arg8_W5 : W5 m ρ c (Proc.devRef .tc main_arg8) = m ((c : Thread nD τ).loc main_arg8) := by
  refine Eq.trans ?_ (arg8_W4 m ρ c)
  exact W5_of_ne m ρ c main_arg8 (by decide)
theorem arg8_W6 : W6 m ρ c (Proc.devRef .tc main_arg8) = m ((c : Thread nD τ).loc main_arg8) := by
  refine Eq.trans ?_ (arg8_W5 m ρ c)
  unwritten_by hostOps2
theorem arg8_W7 : W7 m ρ c (Proc.devRef .tc main_arg8) = m ((c : Thread nD τ).loc main_arg8) := by
  refine Eq.trans ?_ (arg8_W6 m ρ c)
  unwritten_by hostOps2_1
theorem arg8_W8 : W8 m ρ c (Proc.devRef .tc main_arg8) = m ((c : Thread nD τ).loc main_arg8) := by
  refine Eq.trans ?_ (arg8_W7 m ρ c)
  exact W8_of_ne m ρ c main_arg8 (by decide)

theorem arg9_W0 : W0 m ρ c (Proc.devRef .tc main_arg9) = m ((c : Thread nD τ).loc main_arg9) := rfl
theorem arg9_W1 : W1 m ρ c (Proc.devRef .tc main_arg9) = m ((c : Thread nD τ).loc main_arg9) := by
  refine Eq.trans ?_ (arg9_W0 m ρ c)
  unwritten_by hostOps0
theorem arg9_W2 : W2 m ρ c (Proc.devRef .tc main_arg9) = m ((c : Thread nD τ).loc main_arg9) := by
  refine Eq.trans ?_ (arg9_W1 m ρ c)
  exact W2_of_ne m ρ c main_arg9 (by decide)
theorem arg9_W3 : W3 m ρ c (Proc.devRef .tc main_arg9) = m ((c : Thread nD τ).loc main_arg9) := by
  refine Eq.trans ?_ (arg9_W2 m ρ c)
  unwritten_by hostOps1
theorem arg9_W4 : W4 m ρ c (Proc.devRef .tc main_arg9) = m ((c : Thread nD τ).loc main_arg9) := by
  refine Eq.trans ?_ (arg9_W3 m ρ c)
  unwritten_by hostOps1_1
theorem arg9_W5 : W5 m ρ c (Proc.devRef .tc main_arg9) = m ((c : Thread nD τ).loc main_arg9) := by
  refine Eq.trans ?_ (arg9_W4 m ρ c)
  exact W5_of_ne m ρ c main_arg9 (by decide)
theorem arg9_W6 : W6 m ρ c (Proc.devRef .tc main_arg9) = m ((c : Thread nD τ).loc main_arg9) := by
  refine Eq.trans ?_ (arg9_W5 m ρ c)
  unwritten_by hostOps2
theorem arg9_W7 : W7 m ρ c (Proc.devRef .tc main_arg9) = m ((c : Thread nD τ).loc main_arg9) := by
  refine Eq.trans ?_ (arg9_W6 m ρ c)
  unwritten_by hostOps2_1
theorem arg9_W8 : W8 m ρ c (Proc.devRef .tc main_arg9) = m ((c : Thread nD τ).loc main_arg9) := by
  refine Eq.trans ?_ (arg9_W7 m ρ c)
  exact W8_of_ne m ρ c main_arg9 (by decide)
theorem arg9_W9 : W9 m ρ c (Proc.devRef .tc main_arg9) = m ((c : Thread nD τ).loc main_arg9) := by
  refine Eq.trans ?_ (arg9_W8 m ρ c)
  unwritten_by hostOps3
theorem arg9_W10 : W10 m ρ c (Proc.devRef .tc main_arg9) = m ((c : Thread nD τ).loc main_arg9) := by
  refine Eq.trans ?_ (arg9_W9 m ρ c)
  unwritten_by hostOps3_1

theorem arg10_W0 : W0 m ρ c (Proc.devRef .tc main_arg10) = m ((c : Thread nD τ).loc main_arg10) := rfl
theorem arg10_W1 : W1 m ρ c (Proc.devRef .tc main_arg10) = m ((c : Thread nD τ).loc main_arg10) := by
  refine Eq.trans ?_ (arg10_W0 m ρ c)
  unwritten_by hostOps0
theorem arg10_W2 : W2 m ρ c (Proc.devRef .tc main_arg10) = m ((c : Thread nD τ).loc main_arg10) := by
  refine Eq.trans ?_ (arg10_W1 m ρ c)
  exact W2_of_ne m ρ c main_arg10 (by decide)
theorem arg10_W3 : W3 m ρ c (Proc.devRef .tc main_arg10) = m ((c : Thread nD τ).loc main_arg10) := by
  refine Eq.trans ?_ (arg10_W2 m ρ c)
  unwritten_by hostOps1
theorem arg10_W4 : W4 m ρ c (Proc.devRef .tc main_arg10) = m ((c : Thread nD τ).loc main_arg10) := by
  refine Eq.trans ?_ (arg10_W3 m ρ c)
  unwritten_by hostOps1_1
theorem arg10_W5 : W5 m ρ c (Proc.devRef .tc main_arg10) = m ((c : Thread nD τ).loc main_arg10) := by
  refine Eq.trans ?_ (arg10_W4 m ρ c)
  exact W5_of_ne m ρ c main_arg10 (by decide)
theorem arg10_W6 : W6 m ρ c (Proc.devRef .tc main_arg10) = m ((c : Thread nD τ).loc main_arg10) := by
  refine Eq.trans ?_ (arg10_W5 m ρ c)
  unwritten_by hostOps2
theorem arg10_W7 : W7 m ρ c (Proc.devRef .tc main_arg10) = m ((c : Thread nD τ).loc main_arg10) := by
  refine Eq.trans ?_ (arg10_W6 m ρ c)
  unwritten_by hostOps2_1
theorem arg10_W8 : W8 m ρ c (Proc.devRef .tc main_arg10) = m ((c : Thread nD τ).loc main_arg10) := by
  refine Eq.trans ?_ (arg10_W7 m ρ c)
  exact W8_of_ne m ρ c main_arg10 (by decide)
theorem arg10_W9 : W9 m ρ c (Proc.devRef .tc main_arg10) = m ((c : Thread nD τ).loc main_arg10) := by
  refine Eq.trans ?_ (arg10_W8 m ρ c)
  unwritten_by hostOps3
theorem arg10_W10 : W10 m ρ c (Proc.devRef .tc main_arg10) = m ((c : Thread nD τ).loc main_arg10) := by
  refine Eq.trans ?_ (arg10_W9 m ρ c)
  unwritten_by hostOps3_1
theorem arg10_W11 : W11 m ρ c (Proc.devRef .tc main_arg10) = m ((c : Thread nD τ).loc main_arg10) := by
  refine Eq.trans ?_ (arg10_W10 m ρ c)
  exact W11_of_ne m ρ c main_arg10 (by decide)

theorem arg11_W0 : W0 m ρ c (Proc.devRef .tc main_arg11) = m ((c : Thread nD τ).loc main_arg11) := rfl
theorem arg11_W1 : W1 m ρ c (Proc.devRef .tc main_arg11) = m ((c : Thread nD τ).loc main_arg11) := by
  refine Eq.trans ?_ (arg11_W0 m ρ c)
  unwritten_by hostOps0
theorem arg11_W2 : W2 m ρ c (Proc.devRef .tc main_arg11) = m ((c : Thread nD τ).loc main_arg11) := by
  refine Eq.trans ?_ (arg11_W1 m ρ c)
  exact W2_of_ne m ρ c main_arg11 (by decide)
theorem arg11_W3 : W3 m ρ c (Proc.devRef .tc main_arg11) = m ((c : Thread nD τ).loc main_arg11) := by
  refine Eq.trans ?_ (arg11_W2 m ρ c)
  unwritten_by hostOps1
theorem arg11_W4 : W4 m ρ c (Proc.devRef .tc main_arg11) = m ((c : Thread nD τ).loc main_arg11) := by
  refine Eq.trans ?_ (arg11_W3 m ρ c)
  unwritten_by hostOps1_1
theorem arg11_W5 : W5 m ρ c (Proc.devRef .tc main_arg11) = m ((c : Thread nD τ).loc main_arg11) := by
  refine Eq.trans ?_ (arg11_W4 m ρ c)
  exact W5_of_ne m ρ c main_arg11 (by decide)
theorem arg11_W6 : W6 m ρ c (Proc.devRef .tc main_arg11) = m ((c : Thread nD τ).loc main_arg11) := by
  refine Eq.trans ?_ (arg11_W5 m ρ c)
  unwritten_by hostOps2
theorem arg11_W7 : W7 m ρ c (Proc.devRef .tc main_arg11) = m ((c : Thread nD τ).loc main_arg11) := by
  refine Eq.trans ?_ (arg11_W6 m ρ c)
  unwritten_by hostOps2_1
theorem arg11_W8 : W8 m ρ c (Proc.devRef .tc main_arg11) = m ((c : Thread nD τ).loc main_arg11) := by
  refine Eq.trans ?_ (arg11_W7 m ρ c)
  exact W8_of_ne m ρ c main_arg11 (by decide)
theorem arg11_W9 : W9 m ρ c (Proc.devRef .tc main_arg11) = m ((c : Thread nD τ).loc main_arg11) := by
  refine Eq.trans ?_ (arg11_W8 m ρ c)
  unwritten_by hostOps3
theorem arg11_W10 : W10 m ρ c (Proc.devRef .tc main_arg11) = m ((c : Thread nD τ).loc main_arg11) := by
  refine Eq.trans ?_ (arg11_W9 m ρ c)
  unwritten_by hostOps3_1
theorem arg11_W11 : W11 m ρ c (Proc.devRef .tc main_arg11) = m ((c : Thread nD τ).loc main_arg11) := by
  refine Eq.trans ?_ (arg11_W10 m ρ c)
  exact W11_of_ne m ρ c main_arg11 (by decide)
theorem arg11_W12 : W12 m ρ c (Proc.devRef .tc main_arg11) = m ((c : Thread nD τ).loc main_arg11) := by
  refine Eq.trans ?_ (arg11_W11 m ρ c)
  unwritten_by hostOps4
theorem arg11_W13 : W13 m ρ c (Proc.devRef .tc main_arg11) = m ((c : Thread nD τ).loc main_arg11) := by
  refine Eq.trans ?_ (arg11_W12 m ρ c)
  unwritten_by hostOps4_1
theorem arg11_W14 : W14 m ρ c (Proc.devRef .tc main_arg11) = m ((c : Thread nD τ).loc main_arg11) := by
  refine Eq.trans ?_ (arg11_W13 m ρ c)
  unwritten_by hostOps4_2

theorem arg12_W0 : W0 m ρ c (Proc.devRef .tc main_arg12) = m ((c : Thread nD τ).loc main_arg12) := rfl
theorem arg12_W1 : W1 m ρ c (Proc.devRef .tc main_arg12) = m ((c : Thread nD τ).loc main_arg12) := by
  refine Eq.trans ?_ (arg12_W0 m ρ c)
  unwritten_by hostOps0
theorem arg12_W2 : W2 m ρ c (Proc.devRef .tc main_arg12) = m ((c : Thread nD τ).loc main_arg12) := by
  refine Eq.trans ?_ (arg12_W1 m ρ c)
  exact W2_of_ne m ρ c main_arg12 (by decide)
theorem arg12_W3 : W3 m ρ c (Proc.devRef .tc main_arg12) = m ((c : Thread nD τ).loc main_arg12) := by
  refine Eq.trans ?_ (arg12_W2 m ρ c)
  unwritten_by hostOps1
theorem arg12_W4 : W4 m ρ c (Proc.devRef .tc main_arg12) = m ((c : Thread nD τ).loc main_arg12) := by
  refine Eq.trans ?_ (arg12_W3 m ρ c)
  unwritten_by hostOps1_1
theorem arg12_W5 : W5 m ρ c (Proc.devRef .tc main_arg12) = m ((c : Thread nD τ).loc main_arg12) := by
  refine Eq.trans ?_ (arg12_W4 m ρ c)
  exact W5_of_ne m ρ c main_arg12 (by decide)
theorem arg12_W6 : W6 m ρ c (Proc.devRef .tc main_arg12) = m ((c : Thread nD τ).loc main_arg12) := by
  refine Eq.trans ?_ (arg12_W5 m ρ c)
  unwritten_by hostOps2
theorem arg12_W7 : W7 m ρ c (Proc.devRef .tc main_arg12) = m ((c : Thread nD τ).loc main_arg12) := by
  refine Eq.trans ?_ (arg12_W6 m ρ c)
  unwritten_by hostOps2_1
theorem arg12_W8 : W8 m ρ c (Proc.devRef .tc main_arg12) = m ((c : Thread nD τ).loc main_arg12) := by
  refine Eq.trans ?_ (arg12_W7 m ρ c)
  exact W8_of_ne m ρ c main_arg12 (by decide)
theorem arg12_W9 : W9 m ρ c (Proc.devRef .tc main_arg12) = m ((c : Thread nD τ).loc main_arg12) := by
  refine Eq.trans ?_ (arg12_W8 m ρ c)
  unwritten_by hostOps3
theorem arg12_W10 : W10 m ρ c (Proc.devRef .tc main_arg12) = m ((c : Thread nD τ).loc main_arg12) := by
  refine Eq.trans ?_ (arg12_W9 m ρ c)
  unwritten_by hostOps3_1
theorem arg12_W11 : W11 m ρ c (Proc.devRef .tc main_arg12) = m ((c : Thread nD τ).loc main_arg12) := by
  refine Eq.trans ?_ (arg12_W10 m ρ c)
  exact W11_of_ne m ρ c main_arg12 (by decide)
theorem arg12_W12 : W12 m ρ c (Proc.devRef .tc main_arg12) = m ((c : Thread nD τ).loc main_arg12) := by
  refine Eq.trans ?_ (arg12_W11 m ρ c)
  unwritten_by hostOps4
theorem arg12_W13 : W13 m ρ c (Proc.devRef .tc main_arg12) = m ((c : Thread nD τ).loc main_arg12) := by
  refine Eq.trans ?_ (arg12_W12 m ρ c)
  unwritten_by hostOps4_1

theorem arg13_W0 : W0 m ρ c (Proc.devRef .tc main_arg13) = m ((c : Thread nD τ).loc main_arg13) := rfl
theorem arg13_W1 : W1 m ρ c (Proc.devRef .tc main_arg13) = m ((c : Thread nD τ).loc main_arg13) := by
  refine Eq.trans ?_ (arg13_W0 m ρ c)
  unwritten_by hostOps0
theorem arg13_W2 : W2 m ρ c (Proc.devRef .tc main_arg13) = m ((c : Thread nD τ).loc main_arg13) := by
  refine Eq.trans ?_ (arg13_W1 m ρ c)
  exact W2_of_ne m ρ c main_arg13 (by decide)
theorem arg13_W3 : W3 m ρ c (Proc.devRef .tc main_arg13) = m ((c : Thread nD τ).loc main_arg13) := by
  refine Eq.trans ?_ (arg13_W2 m ρ c)
  unwritten_by hostOps1
theorem arg13_W4 : W4 m ρ c (Proc.devRef .tc main_arg13) = m ((c : Thread nD τ).loc main_arg13) := by
  refine Eq.trans ?_ (arg13_W3 m ρ c)
  unwritten_by hostOps1_1
theorem arg13_W5 : W5 m ρ c (Proc.devRef .tc main_arg13) = m ((c : Thread nD τ).loc main_arg13) := by
  refine Eq.trans ?_ (arg13_W4 m ρ c)
  exact W5_of_ne m ρ c main_arg13 (by decide)
theorem arg13_W6 : W6 m ρ c (Proc.devRef .tc main_arg13) = m ((c : Thread nD τ).loc main_arg13) := by
  refine Eq.trans ?_ (arg13_W5 m ρ c)
  unwritten_by hostOps2
theorem arg13_W7 : W7 m ρ c (Proc.devRef .tc main_arg13) = m ((c : Thread nD τ).loc main_arg13) := by
  refine Eq.trans ?_ (arg13_W6 m ρ c)
  unwritten_by hostOps2_1
theorem arg13_W8 : W8 m ρ c (Proc.devRef .tc main_arg13) = m ((c : Thread nD τ).loc main_arg13) := by
  refine Eq.trans ?_ (arg13_W7 m ρ c)
  exact W8_of_ne m ρ c main_arg13 (by decide)
theorem arg13_W9 : W9 m ρ c (Proc.devRef .tc main_arg13) = m ((c : Thread nD τ).loc main_arg13) := by
  refine Eq.trans ?_ (arg13_W8 m ρ c)
  unwritten_by hostOps3
theorem arg13_W10 : W10 m ρ c (Proc.devRef .tc main_arg13) = m ((c : Thread nD τ).loc main_arg13) := by
  refine Eq.trans ?_ (arg13_W9 m ρ c)
  unwritten_by hostOps3_1
theorem arg13_W11 : W11 m ρ c (Proc.devRef .tc main_arg13) = m ((c : Thread nD τ).loc main_arg13) := by
  refine Eq.trans ?_ (arg13_W10 m ρ c)
  exact W11_of_ne m ρ c main_arg13 (by decide)
theorem arg13_W12 : W12 m ρ c (Proc.devRef .tc main_arg13) = m ((c : Thread nD τ).loc main_arg13) := by
  refine Eq.trans ?_ (arg13_W11 m ρ c)
  unwritten_by hostOps4
theorem arg13_W13 : W13 m ρ c (Proc.devRef .tc main_arg13) = m ((c : Thread nD τ).loc main_arg13) := by
  refine Eq.trans ?_ (arg13_W12 m ρ c)
  unwritten_by hostOps4_1
theorem arg13_W14 : W14 m ρ c (Proc.devRef .tc main_arg13) = m ((c : Thread nD τ).loc main_arg13) := by
  refine Eq.trans ?_ (arg13_W13 m ρ c)
  unwritten_by hostOps4_2

theorem arg14_W0 : W0 m ρ c (Proc.devRef .tc main_arg14) = m ((c : Thread nD τ).loc main_arg14) := rfl
theorem arg14_W1 : W1 m ρ c (Proc.devRef .tc main_arg14) = m ((c : Thread nD τ).loc main_arg14) := by
  refine Eq.trans ?_ (arg14_W0 m ρ c)
  unwritten_by hostOps0
theorem arg14_W2 : W2 m ρ c (Proc.devRef .tc main_arg14) = m ((c : Thread nD τ).loc main_arg14) := by
  refine Eq.trans ?_ (arg14_W1 m ρ c)
  exact W2_of_ne m ρ c main_arg14 (by decide)
theorem arg14_W3 : W3 m ρ c (Proc.devRef .tc main_arg14) = m ((c : Thread nD τ).loc main_arg14) := by
  refine Eq.trans ?_ (arg14_W2 m ρ c)
  unwritten_by hostOps1
theorem arg14_W4 : W4 m ρ c (Proc.devRef .tc main_arg14) = m ((c : Thread nD τ).loc main_arg14) := by
  refine Eq.trans ?_ (arg14_W3 m ρ c)
  unwritten_by hostOps1_1
theorem arg14_W5 : W5 m ρ c (Proc.devRef .tc main_arg14) = m ((c : Thread nD τ).loc main_arg14) := by
  refine Eq.trans ?_ (arg14_W4 m ρ c)
  exact W5_of_ne m ρ c main_arg14 (by decide)
theorem arg14_W6 : W6 m ρ c (Proc.devRef .tc main_arg14) = m ((c : Thread nD τ).loc main_arg14) := by
  refine Eq.trans ?_ (arg14_W5 m ρ c)
  unwritten_by hostOps2
theorem arg14_W7 : W7 m ρ c (Proc.devRef .tc main_arg14) = m ((c : Thread nD τ).loc main_arg14) := by
  refine Eq.trans ?_ (arg14_W6 m ρ c)
  unwritten_by hostOps2_1
theorem arg14_W8 : W8 m ρ c (Proc.devRef .tc main_arg14) = m ((c : Thread nD τ).loc main_arg14) := by
  refine Eq.trans ?_ (arg14_W7 m ρ c)
  exact W8_of_ne m ρ c main_arg14 (by decide)
theorem arg14_W9 : W9 m ρ c (Proc.devRef .tc main_arg14) = m ((c : Thread nD τ).loc main_arg14) := by
  refine Eq.trans ?_ (arg14_W8 m ρ c)
  unwritten_by hostOps3
theorem arg14_W10 : W10 m ρ c (Proc.devRef .tc main_arg14) = m ((c : Thread nD τ).loc main_arg14) := by
  refine Eq.trans ?_ (arg14_W9 m ρ c)
  unwritten_by hostOps3_1
theorem arg14_W11 : W11 m ρ c (Proc.devRef .tc main_arg14) = m ((c : Thread nD τ).loc main_arg14) := by
  refine Eq.trans ?_ (arg14_W10 m ρ c)
  exact W11_of_ne m ρ c main_arg14 (by decide)
theorem arg14_W12 : W12 m ρ c (Proc.devRef .tc main_arg14) = m ((c : Thread nD τ).loc main_arg14) := by
  refine Eq.trans ?_ (arg14_W11 m ρ c)
  unwritten_by hostOps4
theorem arg14_W13 : W13 m ρ c (Proc.devRef .tc main_arg14) = m ((c : Thread nD τ).loc main_arg14) := by
  refine Eq.trans ?_ (arg14_W12 m ρ c)
  unwritten_by hostOps4_1

end Cert.KernelIdeal.Fold

end
-- ==== Proof.Region1.lean ====
/-
  Region 1: a projection of the node features, tiled along the node axis.

  The region's first window walks the [50000,32] feature matrix in ten tiles of 5000 rows, its second window holds
  the whole [32,64] weight matrix at every grid point, and its output window writes tile t of the [50000,64]
  result. Inside a tile the body narrows both operands to bf16 and accumulates their product into zeros, which on the
  extended reals is the plain matrix product of the tile's rows with the weights. Row r of the result therefore
  depends on row r of the features alone: tile t of the product of the whole matrices is the product of tile t's
  rows, and since the ten tiles cover rows 0 … 49999 the output array ends as the whole product, whatever the
  buffers held when the region was entered.
-/
import proofs.«107992_j2688649527319_1_alg».proof.Proof.Gen.KernelIdeal.Frame
import proofs.«107992_j2688649527319_1_alg».proof.Proof.Products

set_option maxRecDepth 16384

noncomputable section

namespace Cert.KernelIdeal.Tiles1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-! ## The tile's arithmetic -/

/-- The tile product's left operand is read at the result's row. -/
theorem lhs_row (j : S5000x64.Idx) (q : dot_S5000x32_S32x64_S5000x64_1_0_0_1_n_n.contr.Idx) :
    (dot_S5000x32_S32x64_S5000x64_1_0_0_1_n_n.lhsIdx j q 0).val = (j 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl

/-- The tile product's right operand is read at the result's column. -/
theorem rhs_col (j : S5000x64.Idx) (q : dot_S5000x32_S32x64_S5000x64_1_0_0_1_n_n.contr.Idx) :
    (dot_S5000x32_S32x64_S5000x64_1_0_0_1_n_n.rhsIdx j q 1).val = (j 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- What a grid point stores: the product of its 5000 rows with the weights. -/
theorem tile_eq (x0 : Vec Ideal S5000x32 .f32) (x1 : Vec Ideal S32x64 .f32) :
    k1_pay1 x0 x1 = Cert.Gnn.matProd (A := 5000) (K := 32) (B := 64) x0 x1 := by
  unfold k1_pay1
  rw [shapeCast_self]
  exact Cert.Gnn.tileDot dot_S5000x32_S32x64_S5000x64_1_0_0_1_n_n rfl rfl rfl rfl lhs_row rhs_col bitsLt_bf16_f32 x0 x1

/-! ## From tiles to the array -/

/-- The printed index maps over the ten grid points: the feature window and the output window sit at the same tile
    of rows, all columns; the weight window never moves. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every tile of rows is some grid point's. -/
theorem index_onto : ∀ q : Fin 10, ∃ t : Fin cfg1.N, win1_2.index t = ![q.val, 0] :=
  (by decide +kernel : ∀ q : Fin 10, ∃ t : Fin grid1.N, win1_2.index t = ![q.val, 0])

/-- What point t writes back is tile t of the whole product of the arrays the region was entered with. -/
theorem flushed_eq (c : Dev nD) (t : Fin cfg1.N) :
    (dat1 V c).flushed 2 t = ((cfg1.win 2).blk t).view.read (Elt Ideal)
      (Cert.Gnn.matProd (A := 50000) (K := 32) (B := 64) (V c main_v46) (V c main_arg5)) := by
  show (cfg1.win 2).cut (grid1.coords t) ((dat1 V c).after 2 t) = _
  rw [after1_2]
  unfold out1_2
  rw [View.canon_unit_zero offsets_zero]
  simp only [View.ld_unit_zero (S := S5000x32) offsets_zero, View.ld_unit_zero (S := S32x64) offsets_zero]
  rw [tile_eq]
  obtain ⟨e0, e1, e2, e3, e4, e5⟩ := index_facts t
  funext j
  show Cert.Gnn.matProd (A := 5000) (K := 32) (B := 64) (iblk1 V c 0 t) (iblk1 V c 1 t) j
    = Cert.Gnn.matProd (A := 50000) (K := 32) (B := 64) (V c main_v46) (V c main_arg5) (((cfg1.win 2).blk t).view.emb j)
  refine Cert.Gnn.matProd_congr (A := 50000) (A' := 5000) (K := 32) (B := 64) _ _ _ _ j _ (fun k => ?_) (fun k => ?_)
  · show V c main_v46 (((cfg1.win 0).blk t).view.emb (ix2 (j 0) k)) = V c main_v46 (ix2 ((((cfg1.win 2).blk t).view.emb j) 0) k)
    refine congrArg (V c main_v46) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 32 + 1 * k.val = k.val; omega
  · show V c main_arg5 (((cfg1.win 1).blk t).view.emb (ix2 k (j 1))) = V c main_arg5 (ix2 k ((((cfg1.win 2).blk t).view.emb j) 1))
    refine congrArg (V c main_arg5) (funext fun a => Fin.ext ?_)
    match a with
    | ⟨0, _⟩ => show win1_1.index t (0 : Fin 2) * 32 + 1 * k.val = k.val; omega
    | ⟨1, _⟩ => show win1_1.index t (1 : Fin 2) * 64 + 1 * (j 1).val = win1_2.index t (1 : Fin 2) * 64 + 1 * (j 1).val; omega

/-- An index of the output array is in point t's tile iff each coordinate is in the tile's range on its axis. -/
theorem mem_tile (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- The ten tiles cover the output array: row r is in tile r / 5000. -/
theorem covered (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_tile]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE REGION'S VALUE: its output array ends as the product of the two arrays it was entered with. -/
theorem value (c : Dev nD) :
    (dat1 V c).arrAt 2 cfg1.N = Cert.Gnn.matProd (A := 50000) (K := 32) (B := 64) (V c main_v46) (V c main_arg5) :=
  (dat1 V c).arrAt_eq_of_cover 2 _ (fun t _ => flushed_eq V c t) covered

end Cert.KernelIdeal.Tiles1

end
-- ==== Proof.LibFoldSegments.lean ====
/-
  Reading back a straight line of host operations a segment at a time: the method, and the one fact it needs beyond the library.

  The buffer contents after a line of host operations are a fold of the operations over the contents the line starts from.
  (1) The fold over two lists in a row is the fold over the second list of the fold over the first (the library's
  `StableHlo.after_append`), so a long line can be cut anywhere and each piece read over whatever contents it is entered with. (2) A called function that the printer has inlined
  keeps each of its values in a buffer through a pair of transports, into the buffer's own type and back to the value's type;
  for ANY typed reference the round trip is the identity, with no look-up of the buffer's type in the signature's tables.
  Together: cut the line at the inlined calls; read a plain piece directly against the values it is entered with; read an
  inlined call over the entering contents as they are, removing the round trips by (2) and the two transports at its
  boundary buffers by the plain fact that a transport along an equation between equal types is the identity, and only
  then compare. This matters when a call contains a reduction over an axis: there a direct comparison across the transports
  was found not to terminate within any recursion limit, while for calls made only of pointwise operations and broadcasts it
  does.
-/
import Idealize.ShloMosaic.Lib.StableHlo.Run

noncomputable section

namespace Cert.LibFoldSegments

open Idealize.ShloMosaic Idealize.ShloMosaic.StableHlo

variable {τ : Topo} {sig : RefSig} {Val : EltTy → Type}

/-- A value carried into the buffer of a typed reference and read back at the value's type is itself, for any reference. -/
theorem ofBuf_toBuf {T : BufTy} (x : TRef sig T) (v : T.Contents Val) : x.ofBuf (x.toBuf v) = v := by
  obtain ⟨r, h, h1, h2⟩ := x
  subst h
  rfl

end Cert.LibFoldSegments

end
-- ==== Proof.Fold1.lean ====
/-
  The fold through layer 1 and region 1.

  Over the extended reals a layer is  max (segment_sum (h_proj[src] · norm, dst) + b, 0): the stretch of host
  operations between two regions is, operation by operation, the reference's stretch for the same layer, read over
  buffers that hold the reference's values. The region after it multiplies the layer's output by the next weight
  matrix, tile by tile, which is the reference's next matrix product.
-/
import proofs.«107992_j2688649527319_1_alg».proof.Proof.KeepEdges
import proofs.«107992_j2688649527319_1_alg».proof.Proof.KeepArgs
import proofs.«107992_j2688649527319_1_alg».proof.Proof.Region1
import proofs.«107992_j2688649527319_1_alg».proof.Proof.LibFoldSegments

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- Layer 1 before its relu: gather the projected features at the source nodes, scale each edge by its
    normalisation, sum into the destination nodes, add the bias — over the arrays the previous boundary holds, these
    are the reference's operations for this layer. -/
theorem pre1_eq : W3 m ρ c (Proc.devRef .tc main_v45)
    = Cert.ReferenceIdeal.Read.val_main_v45 (F := Ideal) (m ((c : Thread nD τ).loc main_arg0)) (m ((c : Thread nD τ).loc main_arg1)) (m ((c : Thread nD τ).loc main_arg3)) (m ((c : Thread nD τ).loc main_arg4)) := by
  show StableHlo.after hostOps1 (W2 m ρ c) (Proc.devRef .tc main_v45) = _
  simp only [hostOps1]
  after_results_simp
  rw [proj0_eq m ρ c, v3_W2 m ρ c, v6_W2 m ρ c, v28_W2 m ρ c, arg4_W2 m ρ c]
  rfl

/-- A value carried into layer 1's output buffer is unchanged: the buffer's type is the value's. -/
theorem out1_cast (v : (⟨S50000x32, .f32⟩ : BufTy).Contents (Elt Ideal)) :
    (TRef.of (sig := sig) (T := ⟨S50000x32, .f32⟩) main_v46).toBuf v = v := eq_of_heq (cast_heq _ _)

/-- What layer 1's pre-activation buffer holds, read at the value's type, is unchanged. -/
theorem in1_cast (u : (main_v45 : Ref sig .tc).ty.Contents (Elt Ideal)) :
    (TRef.of (sig := sig) (T := ⟨S50000x32, .f32⟩) main_v45).ofBuf u = u := eq_of_heq (cast_heq _ _)

/-- Layer 1's relu, an inlined call of three operations: the maximum of whatever the pre-activation buffer holds
    with a zero constant stretched to its shape. Each of the call's values passes through its buffer and back, which
    changes nothing. -/
theorem relu1_step : W4 m ρ c (Proc.devRef .tc main_v46)
    = maximumf (s := S50000x32) (φ := .f32) (W3 m ρ c (Proc.devRef .tc main_v45))
        (broadcastInDim S50000x32 ![] bcast_S_S50000x32 (constant (F := Ideal) S_ .f32 0x00000000#32)) := by
  show StableHlo.after hostOps1_1 (W3 m ρ c) (Proc.devRef .tc main_v46) = _
  simp only [hostOps1_1]
  after_results_simp
  simp only [Cert.LibFoldSegments.ofBuf_toBuf]
  rw [out1_cast, in1_cast]

/-- Layer 1's output is the reference's. -/
theorem h1_eq : W4 m ρ c (Proc.devRef .tc main_v46)
    = Cert.ReferenceIdeal.Read.val_main_v46 (F := Ideal) (m ((c : Thread nD τ).loc main_arg0)) (m ((c : Thread nD τ).loc main_arg1)) (m ((c : Thread nD τ).loc main_arg3)) (m ((c : Thread nD τ).loc main_arg4)) := by
  rw [relu1_step m ρ c, pre1_eq m ρ c]
  rfl

/-- Region 1 leaves the product of layer 1's output with the next weight matrix: the reference's next projection. -/
theorem proj1_eq : W5 m ρ c (Proc.devRef .tc main_v47)
    = Cert.ReferenceIdeal.Read.val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ?_
  rw [Cert.KernelIdeal.Tiles1.value (V4 m ρ) c]
  show Cert.Gnn.matProd (A := 50000) (K := 32) (B := 64) (W4 m ρ c (Proc.devRef .tc main_v46)) (W4 m ρ c (Proc.devRef .tc main_arg5)) = _
  rw [h1_eq m ρ c, arg5_W4 m ρ c]
  unfold Cert.ReferenceIdeal.Read.val_main_v47
  exact (Cert.Gnn.hostDot Cert.ReferenceIdeal.dot_S50000x32_S32x64_S50000x64_1_0_0_1_n_n rfl rfl rfl rfl
    Cert.ReferenceIdeal.Read.lhs_main_v47_0 Cert.ReferenceIdeal.Read.rhs_main_v47_1 _ _).symm

end Cert.KernelIdeal.Fold

end
-- ==== Proof.Region2.lean ====
/-
  Region 2: a projection of the node features, tiled along the node axis.

  The region's first window walks the [50000,64] feature matrix in ten tiles of 5000 rows, its second window holds
  the whole [64,128] weight matrix at every grid point, and its output window writes tile t of the [50000,128]
  result. Inside a tile the body narrows both operands to bf16 and accumulates their product into zeros, which on the
  extended reals is the plain matrix product of the tile's rows with the weights. Row r of the result therefore
  depends on row r of the features alone: tile t of the product of the whole matrices is the product of tile t's
  rows, and since the ten tiles cover rows 0 … 49999 the output array ends as the whole product, whatever the
  buffers held when the region was entered.
-/
import proofs.«107992_j2688649527319_1_alg».proof.Proof.Gen.KernelIdeal.Frame
import proofs.«107992_j2688649527319_1_alg».proof.Proof.Products

set_option maxRecDepth 16384

noncomputable section

namespace Cert.KernelIdeal.Tiles2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-! ## The tile's arithmetic -/

/-- The tile product's left operand is read at the result's row. -/
theorem lhs_row (j : S5000x128.Idx) (q : dot_S5000x64_S64x128_S5000x128_1_0_0_1_n_n.contr.Idx) :
    (dot_S5000x64_S64x128_S5000x128_1_0_0_1_n_n.lhsIdx j q 0).val = (j 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl

/-- The tile product's right operand is read at the result's column. -/
theorem rhs_col (j : S5000x128.Idx) (q : dot_S5000x64_S64x128_S5000x128_1_0_0_1_n_n.contr.Idx) :
    (dot_S5000x64_S64x128_S5000x128_1_0_0_1_n_n.rhsIdx j q 1).val = (j 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- What a grid point stores: the product of its 5000 rows with the weights. -/
theorem tile_eq (x0 : Vec Ideal S5000x64 .f32) (x1 : Vec Ideal S64x128 .f32) :
    k2_pay1 x0 x1 = Cert.Gnn.matProd (A := 5000) (K := 64) (B := 128) x0 x1 := by
  unfold k2_pay1
  rw [shapeCast_self]
  exact Cert.Gnn.tileDot dot_S5000x64_S64x128_S5000x128_1_0_0_1_n_n rfl rfl rfl rfl lhs_row rhs_col bitsLt_bf16_f32 x0 x1

/-! ## From tiles to the array -/

/-- The printed index maps over the ten grid points: the feature window and the output window sit at the same tile
    of rows, all columns; the weight window never moves. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every tile of rows is some grid point's. -/
theorem index_onto : ∀ q : Fin 10, ∃ t : Fin cfg2.N, win2_2.index t = ![q.val, 0] :=
  (by decide +kernel : ∀ q : Fin 10, ∃ t : Fin grid2.N, win2_2.index t = ![q.val, 0])

/-- What point t writes back is tile t of the whole product of the arrays the region was entered with. -/
theorem flushed_eq (c : Dev nD) (t : Fin cfg2.N) :
    (dat2 V c).flushed 2 t = ((cfg2.win 2).blk t).view.read (Elt Ideal)
      (Cert.Gnn.matProd (A := 50000) (K := 64) (B := 128) (V c main_v64) (V c main_arg7)) := by
  show (cfg2.win 2).cut (grid2.coords t) ((dat2 V c).after 2 t) = _
  rw [after2_2]
  unfold out2_2
  rw [View.canon_unit_zero offsets_zero]
  simp only [View.ld_unit_zero (S := S5000x64) offsets_zero, View.ld_unit_zero (S := S64x128) offsets_zero]
  rw [tile_eq]
  obtain ⟨e0, e1, e2, e3, e4, e5⟩ := index_facts t
  funext j
  show Cert.Gnn.matProd (A := 5000) (K := 64) (B := 128) (iblk2 V c 0 t) (iblk2 V c 1 t) j
    = Cert.Gnn.matProd (A := 50000) (K := 64) (B := 128) (V c main_v64) (V c main_arg7) (((cfg2.win 2).blk t).view.emb j)
  refine Cert.Gnn.matProd_congr (A := 50000) (A' := 5000) (K := 64) (B := 128) _ _ _ _ j _ (fun k => ?_) (fun k => ?_)
  · show V c main_v64 (((cfg2.win 0).blk t).view.emb (ix2 (j 0) k)) = V c main_v64 (ix2 ((((cfg2.win 2).blk t).view.emb j) 0) k)
    refine congrArg (V c main_v64) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  · show V c main_arg7 (((cfg2.win 1).blk t).view.emb (ix2 k (j 1))) = V c main_arg7 (ix2 k ((((cfg2.win 2).blk t).view.emb j) 1))
    refine congrArg (V c main_arg7) (funext fun a => Fin.ext ?_)
    match a with
    | ⟨0, _⟩ => show win2_1.index t (0 : Fin 2) * 64 + 1 * k.val = k.val; omega
    | ⟨1, _⟩ => show win2_1.index t (1 : Fin 2) * 128 + 1 * (j 1).val = win2_2.index t (1 : Fin 2) * 128 + 1 * (j 1).val; omega

/-- An index of the output array is in point t's tile iff each coordinate is in the tile's range on its axis. -/
theorem mem_tile (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v65).slice (win2_2.rect t)).set ↔ _
  rw [View.set_slice_whole, Rect.mem_set_unit]
  exact Iff.rfl

/-- The ten tiles cover the output array: row r is in tile r / 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_tile]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE REGION'S VALUE: its output array ends as the product of the two arrays it was entered with. -/
theorem value (c : Dev nD) :
    (dat2 V c).arrAt 2 cfg2.N = Cert.Gnn.matProd (A := 50000) (K := 64) (B := 128) (V c main_v64) (V c main_arg7) :=
  (dat2 V c).arrAt_eq_of_cover 2 _ (fun t _ => flushed_eq V c t) covered

end Cert.KernelIdeal.Tiles2

end
-- ==== Proof.Fold2.lean ====
/-
  The fold through layer 2 and region 2.

  Over the extended reals a layer is  max (segment_sum (h_proj[src] · norm, dst) + b, 0): the stretch of host
  operations between two regions is, operation by operation, the reference's stretch for the same layer, read over
  buffers that hold the reference's values. The region after it multiplies the layer's output by the next weight
  matrix, tile by tile, which is the reference's next matrix product.
-/
import proofs.«107992_j2688649527319_1_alg».proof.Proof.Fold1
import proofs.«107992_j2688649527319_1_alg».proof.Proof.Region2
import proofs.«107992_j2688649527319_1_alg».proof.Proof.LibFoldSegments

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- Layer 2 before its relu: gather the projected features at the source nodes, scale each edge by its
    normalisation, sum into the destination nodes, add the bias — over the arrays the previous boundary holds, these
    are the reference's operations for this layer. -/
theorem pre2_eq : W6 m ρ c (Proc.devRef .tc main_v63)
    = Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W5 m ρ c) (Proc.devRef .tc main_v63) = _
  simp only [hostOps2]
  after_results_simp
  rw [proj1_eq m ρ c, v3_W5 m ρ c, v6_W5 m ρ c, v28_W5 m ρ c, arg6_W5 m ρ c]
  rfl

/-- A value carried into layer 2's output buffer is unchanged: the buffer's type is the value's. -/
theorem out2_cast (v : (⟨S50000x64, .f32⟩ : BufTy).Contents (Elt Ideal)) :
    (TRef.of (sig := sig) (T := ⟨S50000x64, .f32⟩) main_v64).toBuf v = v := eq_of_heq (cast_heq _ _)

/-- What layer 2's pre-activation buffer holds, read at the value's type, is unchanged. -/
theorem in2_cast (u : (main_v63 : Ref sig .tc).ty.Contents (Elt Ideal)) :
    (TRef.of (sig := sig) (T := ⟨S50000x64, .f32⟩) main_v63).ofBuf u = u := eq_of_heq (cast_heq _ _)

/-- Layer 2's relu, an inlined call of three operations: the maximum of whatever the pre-activation buffer holds
    with a zero constant stretched to its shape. Each of the call's values passes through its buffer and back, which
    changes nothing. -/
theorem relu2_step : W7 m ρ c (Proc.devRef .tc main_v64)
    = maximumf (s := S50000x64) (φ := .f32) (W6 m ρ c (Proc.devRef .tc main_v63))
        (broadcastInDim S50000x64 ![] bcast_S_S50000x64 (constant (F := Ideal) S_ .f32 0x00000000#32)) := by
  show StableHlo.after hostOps2_1 (W6 m ρ c) (Proc.devRef .tc main_v64) = _
  simp only [hostOps2_1]
  after_results_simp
  simp only [Cert.LibFoldSegments.ofBuf_toBuf]
  rw [out2_cast, in2_cast]

/-- Layer 2's output is the reference's. -/
theorem h2_eq : W7 m ρ c (Proc.devRef .tc main_v64)
    = Cert.ReferenceIdeal.Read.val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [relu2_step m ρ c, pre2_eq m ρ c]
  rfl

/-- Region 2 leaves the product of layer 2's output with the next weight matrix: the reference's next projection. -/
theorem proj2_eq : W8 m ρ c (Proc.devRef .tc main_v65)
    = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ?_
  rw [Cert.KernelIdeal.Tiles2.value (V7 m ρ) c]
  show Cert.Gnn.matProd (A := 50000) (K := 64) (B := 128) (W7 m ρ c (Proc.devRef .tc main_v64)) (W7 m ρ c (Proc.devRef .tc main_arg7)) = _
  rw [h2_eq m ρ c, arg7_W7 m ρ c]
  unfold Cert.ReferenceIdeal.Read.val_main_v65
  exact (Cert.Gnn.hostDot Cert.ReferenceIdeal.dot_S50000x64_S64x128_S50000x128_1_0_0_1_n_n rfl rfl rfl rfl
    Cert.ReferenceIdeal.Read.lhs_main_v65_0 Cert.ReferenceIdeal.Read.rhs_main_v65_1 _ _).symm

end Cert.KernelIdeal.Fold

end
-- ==== Proof.Region3.lean ====
/-
  Region 3: a projection of the node features, tiled along the node axis.

  The region's first window walks the [50000,128] feature matrix in ten tiles of 5000 rows, its second window holds
  the whole [128,256] weight matrix at every grid point, and its output window writes tile t of the [50000,256]
  result. Inside a tile the body narrows both operands to bf16 and accumulates their product into zeros, which on the
  extended reals is the plain matrix product of the tile's rows with the weights. Row r of the result therefore
  depends on row r of the features alone: tile t of the product of the whole matrices is the product of tile t's
  rows, and since the ten tiles cover rows 0 … 49999 the output array ends as the whole product, whatever the
  buffers held when the region was entered.
-/
import proofs.«107992_j2688649527319_1_alg».proof.Proof.Gen.KernelIdeal.Frame
import proofs.«107992_j2688649527319_1_alg».proof.Proof.Products

set_option maxRecDepth 16384

noncomputable section

namespace Cert.KernelIdeal.Tiles3

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-! ## The tile's arithmetic -/

/-- The tile product's left operand is read at the result's row. -/
theorem lhs_row (j : S5000x256.Idx) (q : dot_S5000x128_S128x256_S5000x256_1_0_0_1_n_n.contr.Idx) :
    (dot_S5000x128_S128x256_S5000x256_1_0_0_1_n_n.lhsIdx j q 0).val = (j 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl

/-- The tile product's right operand is read at the result's column. -/
theorem rhs_col (j : S5000x256.Idx) (q : dot_S5000x128_S128x256_S5000x256_1_0_0_1_n_n.contr.Idx) :
    (dot_S5000x128_S128x256_S5000x256_1_0_0_1_n_n.rhsIdx j q 1).val = (j 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- What a grid point stores: the product of its 5000 rows with the weights. -/
theorem tile_eq (x0 : Vec Ideal S5000x128 .f32) (x1 : Vec Ideal S128x256 .f32) :
    k3_pay1 x0 x1 = Cert.Gnn.matProd (A := 5000) (K := 128) (B := 256) x0 x1 := by
  unfold k3_pay1
  rw [shapeCast_self]
  exact Cert.Gnn.tileDot dot_S5000x128_S128x256_S5000x256_1_0_0_1_n_n rfl rfl rfl rfl lhs_row rhs_col bitsLt_bf16_f32 x0 x1

/-! ## From tiles to the array -/

/-- The printed index maps over the ten grid points: the feature window and the output window sit at the same tile
    of rows, all columns; the weight window never moves. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every tile of rows is some grid point's. -/
theorem index_onto : ∀ q : Fin 10, ∃ t : Fin cfg3.N, win3_2.index t = ![q.val, 0] :=
  (by decide +kernel : ∀ q : Fin 10, ∃ t : Fin grid3.N, win3_2.index t = ![q.val, 0])

/-- What point t writes back is tile t of the whole product of the arrays the region was entered with. -/
theorem flushed_eq (c : Dev nD) (t : Fin cfg3.N) :
    (dat3 V c).flushed 2 t = ((cfg3.win 2).blk t).view.read (Elt Ideal)
      (Cert.Gnn.matProd (A := 50000) (K := 128) (B := 256) (V c main_v82) (V c main_arg9)) := by
  show (cfg3.win 2).cut (grid3.coords t) ((dat3 V c).after 2 t) = _
  rw [after3_2]
  unfold out3_2
  rw [View.canon_unit_zero offsets_zero]
  simp only [View.ld_unit_zero (S := S5000x128) offsets_zero, View.ld_unit_zero (S := S128x256) offsets_zero]
  rw [tile_eq]
  obtain ⟨e0, e1, e2, e3, e4, e5⟩ := index_facts t
  funext j
  show Cert.Gnn.matProd (A := 5000) (K := 128) (B := 256) (iblk3 V c 0 t) (iblk3 V c 1 t) j
    = Cert.Gnn.matProd (A := 50000) (K := 128) (B := 256) (V c main_v82) (V c main_arg9) (((cfg3.win 2).blk t).view.emb j)
  refine Cert.Gnn.matProd_congr (A := 50000) (A' := 5000) (K := 128) (B := 256) _ _ _ _ j _ (fun k => ?_) (fun k => ?_)
  · show V c main_v82 (((cfg3.win 0).blk t).view.emb (ix2 (j 0) k)) = V c main_v82 (ix2 ((((cfg3.win 2).blk t).view.emb j) 0) k)
    refine congrArg (V c main_v82) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  · show V c main_arg9 (((cfg3.win 1).blk t).view.emb (ix2 k (j 1))) = V c main_arg9 (ix2 k ((((cfg3.win 2).blk t).view.emb j) 1))
    refine congrArg (V c main_arg9) (funext fun a => Fin.ext ?_)
    match a with
    | ⟨0, _⟩ => show win3_1.index t (0 : Fin 2) * 128 + 1 * k.val = k.val; omega
    | ⟨1, _⟩ => show win3_1.index t (1 : Fin 2) * 256 + 1 * (j 1).val = win3_2.index t (1 : Fin 2) * 256 + 1 * (j 1).val; omega

/-- An index of the output array is in point t's tile iff each coordinate is in the tile's range on its axis. -/
theorem mem_tile (t : Fin cfg3.N) (i : S50000x256.Idx) :
    i ∈ ((cfg3.win 2).blk t).view.set ↔ ∀ a : Fin 2, win3_2.index t a * S5000x256.size a ≤ (i a).val ∧ (i a).val < win3_2.index t a * S5000x256.size a + S5000x256.size a := by
  show i ∈ ((View.whole main_v83).slice (win3_2.rect t)).set ↔ _
  rw [View.set_slice_whole, Rect.mem_set_unit]
  exact Iff.rfl

/-- The ten tiles cover the output array: row r is in tile r / 5000. -/
theorem covered (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_tile]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 256 ≤ (i 1).val ∧ (i 1).val < win3_2.index t (1 : Fin 2) * 256 + 256; omega

/-- THE REGION'S VALUE: its output array ends as the product of the two arrays it was entered with. -/
theorem value (c : Dev nD) :
    (dat3 V c).arrAt 2 cfg3.N = Cert.Gnn.matProd (A := 50000) (K := 128) (B := 256) (V c main_v82) (V c main_arg9) :=
  (dat3 V c).arrAt_eq_of_cover 2 _ (fun t _ => flushed_eq V c t) covered

end Cert.KernelIdeal.Tiles3

end
-- ==== Proof.Fold3.lean ====
/-
  The fold through layer 3 and region 3.

  Over the extended reals a layer is  max (segment_sum (h_proj[src] · norm, dst) + b, 0): the stretch of host
  operations between two regions is, operation by operation, the reference's stretch for the same layer, read over
  buffers that hold the reference's values. The region after it multiplies the layer's output by the next weight
  matrix, tile by tile, which is the reference's next matrix product.
-/
import proofs.«107992_j2688649527319_1_alg».proof.Proof.Fold2
import proofs.«107992_j2688649527319_1_alg».proof.Proof.Region3
import proofs.«107992_j2688649527319_1_alg».proof.Proof.LibFoldSegments

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- Layer 3 before its relu: gather the projected features at the source nodes, scale each edge by its
    normalisation, sum into the destination nodes, add the bias — over the arrays the previous boundary holds, these
    are the reference's operations for this layer. -/
theorem pre3_eq : W9 m ρ c (Proc.devRef .tc main_v81)
    = Cert.ReferenceIdeal.Read.val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W8 m ρ c) (Proc.devRef .tc main_v81) = _
  simp only [hostOps3]
  after_results_simp
  rw [proj2_eq m ρ c, v3_W8 m ρ c, v6_W8 m ρ c, v28_W8 m ρ c, arg8_W8 m ρ c]
  rfl

/-- A value carried into layer 3's output buffer is unchanged: the buffer's type is the value's. -/
theorem out3_cast (v : (⟨S50000x128, .f32⟩ : BufTy).Contents (Elt Ideal)) :
    (TRef.of (sig := sig) (T := ⟨S50000x128, .f32⟩) main_v82).toBuf v = v := eq_of_heq (cast_heq _ _)

/-- What layer 3's pre-activation buffer holds, read at the value's type, is unchanged. -/
theorem in3_cast (u : (main_v81 : Ref sig .tc).ty.Contents (Elt Ideal)) :
    (TRef.of (sig := sig) (T := ⟨S50000x128, .f32⟩) main_v81).ofBuf u = u := eq_of_heq (cast_heq _ _)

/-- Layer 3's relu, an inlined call of three operations: the maximum of whatever the pre-activation buffer holds
    with a zero constant stretched to its shape. Each of the call's values passes through its buffer and back, which
    changes nothing. -/
theorem relu3_step : W10 m ρ c (Proc.devRef .tc main_v82)
    = maximumf (s := S50000x128) (φ := .f32) (W9 m ρ c (Proc.devRef .tc main_v81))
        (broadcastInDim S50000x128 ![] bcast_S_S50000x128 (constant (F := Ideal) S_ .f32 0x00000000#32)) := by
  show StableHlo.after hostOps3_1 (W9 m ρ c) (Proc.devRef .tc main_v82) = _
  simp only [hostOps3_1]
  after_results_simp
  simp only [Cert.LibFoldSegments.ofBuf_toBuf]
  rw [out3_cast, in3_cast]

/-- Layer 3's output is the reference's. -/
theorem h3_eq : W10 m ρ c (Proc.devRef .tc main_v82)
    = Cert.ReferenceIdeal.Read.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [relu3_step m ρ c, pre3_eq m ρ c]
  rfl

/-- Region 3 leaves the product of layer 3's output with the next weight matrix: the reference's next projection. -/
theorem proj3_eq : W11 m ρ c (Proc.devRef .tc main_v83)
    = Cert.ReferenceIdeal.Read.val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W11_arr m ρ c 2).trans ?_
  rw [Cert.KernelIdeal.Tiles3.value (V10 m ρ) c]
  show Cert.Gnn.matProd (A := 50000) (K := 128) (B := 256) (W10 m ρ c (Proc.devRef .tc main_v82)) (W10 m ρ c (Proc.devRef .tc main_arg9)) = _
  rw [h3_eq m ρ c, arg9_W10 m ρ c]
  unfold Cert.ReferenceIdeal.Read.val_main_v83
  exact (Cert.Gnn.hostDot Cert.ReferenceIdeal.dot_S50000x128_S128x256_S50000x256_1_0_0_1_n_n rfl rfl rfl rfl
    Cert.ReferenceIdeal.Read.lhs_main_v83_0 Cert.ReferenceIdeal.Read.rhs_main_v83_1 _ _).symm

end Cert.KernelIdeal.Fold

end
-- ==== Proof.Head.lean ====
/-
  Region 4: the two-layer head on the pooled graph features, one grid point.

  Every window of this region is its whole array: the [500,256] pooled features, the two weight matrices, the two
  biases laid out as [1,256] and [1,10] rows, and the [500,10] result. So the one grid point's blocks are the arrays
  themselves, its write-back covers the whole result, and the result array ends as the body's expression of the five
  arrays the region was entered with. On the extended reals that expression is
      (max ((P · W1) + b1, 0) · W2) + b2
  with both products plain matrix products (the operands' narrowing to bf16 is the identity there), each bias added
  to every row, and the maximum taken entrywise — when the two bias rows are recasts of vectors b1, b2.
-/
import proofs.«107992_j2688649527319_1_alg».proof.Proof.Gen.KernelIdeal.Frame
import proofs.«107992_j2688649527319_1_alg».proof.Proof.Products

set_option maxRecDepth 16384

noncomputable section

namespace Cert.KernelIdeal.Head

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-! ## The body's arithmetic -/

theorem lhs_row1 (j : S500x256.Idx) (q : dot_S500x256_S256x256_S500x256_1_0_0_1_n_n.contr.Idx) :
    (dot_S500x256_S256x256_S500x256_1_0_0_1_n_n.lhsIdx j q 0).val = (j 0).val := by
  unfold DotDims.lhsIdx
  rw [dif_neg (show ¬(0 : Fin S500x256.rank) ∈ dot_S500x256_S256x256_S500x256_1_0_0_1_n_n.lhsBatch by decide), dif_pos (show (0 : Fin S500x256.rank) ∈ dot_S500x256_S256x256_S500x256_1_0_0_1_n_n.lhsNonContracting by decide)]
  rfl

theorem rhs_col1 (j : S500x256.Idx) (q : dot_S500x256_S256x256_S500x256_1_0_0_1_n_n.contr.Idx) :
    (dot_S500x256_S256x256_S500x256_1_0_0_1_n_n.rhsIdx j q 1).val = (j 1).val := by
  unfold DotDims.rhsIdx
  rw [dif_neg (show ¬(1 : Fin S256x256.rank) ∈ dot_S500x256_S256x256_S500x256_1_0_0_1_n_n.rhsBatch by decide), dif_pos (show (1 : Fin S256x256.rank) ∈ dot_S500x256_S256x256_S500x256_1_0_0_1_n_n.rhsNonContracting by decide)]
  rfl

theorem lhs_row2 (j : S500x10.Idx) (q : dot_S500x256_S256x10_S500x10_1_0_0_1_n_n.contr.Idx) :
    (dot_S500x256_S256x10_S500x10_1_0_0_1_n_n.lhsIdx j q 0).val = (j 0).val := by
  unfold DotDims.lhsIdx
  rw [dif_neg (show ¬(0 : Fin S500x256.rank) ∈ dot_S500x256_S256x10_S500x10_1_0_0_1_n_n.lhsBatch by decide), dif_pos (show (0 : Fin S500x256.rank) ∈ dot_S500x256_S256x10_S500x10_1_0_0_1_n_n.lhsNonContracting by decide)]
  rfl

theorem rhs_col2 (j : S500x10.Idx) (q : dot_S500x256_S256x10_S500x10_1_0_0_1_n_n.contr.Idx) :
    (dot_S500x256_S256x10_S500x10_1_0_0_1_n_n.rhsIdx j q 1).val = (j 1).val := by
  unfold DotDims.rhsIdx
  rw [dif_neg (show ¬(1 : Fin S256x10.rank) ∈ dot_S500x256_S256x10_S500x10_1_0_0_1_n_n.rhsBatch by decide), dif_pos (show (1 : Fin S256x10.rank) ∈ dot_S500x256_S256x10_S500x10_1_0_0_1_n_n.rhsNonContracting by decide)]
  rfl

/-- The body's stored value, when its two bias rows are recasts of vectors: (max ((P · W1) + b1, 0) · W2) + b2. -/
theorem body_eq (P : Vec Ideal S500x256 .f32) (W1 : Vec Ideal S256x256 .f32) (b1 : Vec Ideal S256 .f32)
    (W2 : Vec Ideal S256x10 .f32) (b2 : Vec Ideal S10 .f32) :
    k4_pay1 P W1 (shapeCast S1x256 b1 shapeCasts_S256_S1x256) W2 (shapeCast S1x10 b2 shapeCasts_S10_S1x10)
      = Cert.Gnn.addRow (A := 500) (B := 10) (Cert.Gnn.matProd (A := 500) (K := 256) (B := 10)
          (Cert.Gnn.relu (Cert.Gnn.addRow (A := 500) (B := 256) (Cert.Gnn.matProd (A := 500) (K := 256) (B := 256) P W1) b1)) W2) b2 := by
  unfold k4_pay1
  dsimp only
  rw [shapeCast_self P]
  rw [Cert.Gnn.tileDot dot_S500x256_S256x256_S500x256_1_0_0_1_n_n rfl rfl rfl rfl lhs_row1 rhs_col1 bitsLt_bf16_f32 P W1]
  rw [Cert.Gnn.tileAddRow (A := 500) (B := 256) shapeCasts_S256_S1x256 shapeCasts_S1x256_S1x256 broadcasts_S1x256_S500x256 _ b1]
  rw [Cert.Gnn.tileRelu (A := 500) (B := 256)]
  rw [Cert.Gnn.tileDot dot_S500x256_S256x10_S500x10_1_0_0_1_n_n rfl rfl rfl rfl lhs_row2 rhs_col2 bitsLt_bf16_f32 _ W2]
  rw [Cert.Gnn.tileAddRow (A := 500) (B := 10) shapeCasts_S10_S1x10 shapeCasts_S1x10_S1x10 broadcasts_S1x10_S500x10 _ b2]

/-! ## From the one block to the array -/

/-- The printed index maps at the one grid point: every window sits at block (0,0). -/
theorem index_facts : ∀ t : Fin cfg4.N, win4_0.index t (0 : Fin 2) = 0
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0 :=
  (by decide +kernel : ∀ t : Fin grid4.N, _)

/-- What the point writes back is the body's expression of the arrays the region was entered with. -/
theorem flushed_eq (c : Dev nD) (t : Fin cfg4.N) :
    (dat4 V c).flushed 5 t = ((cfg4.win 5).blk t).view.read (Elt Ideal)
      (k4_pay1 (F := Ideal) (V c main_v112) (V c main_arg11) (V c main_v113) (V c main_arg13) (V c main_v114)) := by
  show (cfg4.win 5).cut (grid4.coords t) ((dat4 V c).after 5 t) = _
  rw [after4_5]
  unfold out4_5
  rw [View.canon_unit_zero offsets_zero]
  simp only [View.ld_unit_zero (S := S500x256) offsets_zero, View.ld_unit_zero (S := S256x256) offsets_zero,
    View.ld_unit_zero (S := S1x256) offsets_zero, View.ld_unit_zero (S := S256x10) offsets_zero, View.ld_unit_zero (S := S1x10) offsets_zero]
  obtain ⟨e0, e1, e2, e3, e4, e5, e6, e7, e8, e9, e10, e11⟩ := index_facts t
  have hb0 : iblk4 V c 0 t = V c main_v112 := by
    funext y
    show V c main_v112 (((cfg4.win 0).blk t).view.emb y) = V c main_v112 y
    refine congrArg (V c main_v112) (funext fun a => Fin.ext ?_)
    match a with
    | ⟨0, _⟩ => show win4_0.index t (0 : Fin 2) * 500 + 1 * (y 0).val = (y 0).val; omega
    | ⟨1, _⟩ => show win4_0.index t (1 : Fin 2) * 256 + 1 * (y 1).val = (y 1).val; omega
  have hb1 : iblk4 V c 1 t = V c main_arg11 := by
    funext y
    show V c main_arg11 (((cfg4.win 1).blk t).view.emb y) = V c main_arg11 y
    refine congrArg (V c main_arg11) (funext fun a => Fin.ext ?_)
    match a with
    | ⟨0, _⟩ => show win4_1.index t (0 : Fin 2) * 256 + 1 * (y 0).val = (y 0).val; omega
    | ⟨1, _⟩ => show win4_1.index t (1 : Fin 2) * 256 + 1 * (y 1).val = (y 1).val; omega
  have hb2 : iblk4 V c 2 t = V c main_v113 := by
    funext y
    show V c main_v113 (((cfg4.win 2).blk t).view.emb y) = V c main_v113 y
    refine congrArg (V c main_v113) (funext fun a => Fin.ext ?_)
    match a with
    | ⟨0, _⟩ => show win4_2.index t (0 : Fin 2) * 1 + 1 * (y 0).val = (y 0).val; omega
    | ⟨1, _⟩ => show win4_2.index t (1 : Fin 2) * 256 + 1 * (y 1).val = (y 1).val; omega
  have hb3 : iblk4 V c 3 t = V c main_arg13 := by
    funext y
    show V c main_arg13 (((cfg4.win 3).blk t).view.emb y) = V c main_arg13 y
    refine congrArg (V c main_arg13) (funext fun a => Fin.ext ?_)
    match a with
    | ⟨0, _⟩ => show win4_3.index t (0 : Fin 2) * 256 + 1 * (y 0).val = (y 0).val; omega
    | ⟨1, _⟩ => show win4_3.index t (1 : Fin 2) * 10 + 1 * (y 1).val = (y 1).val; omega
  have hb4 : iblk4 V c 4 t = V c main_v114 := by
    funext y
    show V c main_v114 (((cfg4.win 4).blk t).view.emb y) = V c main_v114 y
    refine congrArg (V c main_v114) (funext fun a => Fin.ext ?_)
    match a with
    | ⟨0, _⟩ => show win4_4.index t (0 : Fin 2) * 1 + 1 * (y 0).val = (y 0).val; omega
    | ⟨1, _⟩ => show win4_4.index t (1 : Fin 2) * 10 + 1 * (y 1).val = (y 1).val; omega
  rw [hb0, hb1, hb2, hb3, hb4]
  funext j
  show k4_pay1 (F := Ideal) (V c main_v112) (V c main_arg11) (V c main_v113) (V c main_arg13) (V c main_v114) j
    = k4_pay1 (F := Ideal) (V c main_v112) (V c main_arg11) (V c main_v113) (V c main_arg13) (V c main_v114) (((cfg4.win 5).blk t).view.emb j)
  refine congrArg _ (funext fun a => Fin.ext ?_)
  match a with
  | ⟨0, _⟩ => show (j 0).val = win4_5.index t (0 : Fin 2) * 500 + 1 * (j 0).val; omega
  | ⟨1, _⟩ => show (j 1).val = win4_5.index t (1 : Fin 2) * 10 + 1 * (j 1).val; omega

/-- An index of the result array is in the point's block iff each coordinate is in the block's range. -/
theorem mem_block (t : Fin cfg4.N) (i : S500x10.Idx) :
    i ∈ ((cfg4.win 5).blk t).view.set ↔ ∀ a : Fin 2, win4_5.index t a * S500x10.size a ≤ (i a).val ∧ (i a).val < win4_5.index t a * S500x10.size a + S500x10.size a := by
  show i ∈ ((View.whole main_v115).slice (win4_5.rect t)).set ↔ _
  rw [View.set_slice_whole, Rect.mem_set_unit]
  exact Iff.rfl

/-- The one block is the whole result array. -/
theorem covered (i : S500x10.Idx) :
    ∃ t : Fin cfg4.N, (cfg4.win 5).flush t = true ∧ i ∈ ((cfg4.win 5).blk t).view.set := by
  have hi0 : (i 0).val < 500 := (i 0).isLt
  have hi1 : (i 1).val < 10 := (i 1).isLt
  obtain ⟨e0, e1, e2, e3, e4, e5, e6, e7, e8, e9, e10, e11⟩ := index_facts t4_0
  refine ⟨t4_0, flush4_5 t4_0, ?_⟩
  rw [mem_block]
  intro a
  match a with
  | ⟨0, _⟩ => show win4_5.index t4_0 (0 : Fin 2) * 500 ≤ (i 0).val ∧ (i 0).val < win4_5.index t4_0 (0 : Fin 2) * 500 + 500; omega
  | ⟨1, _⟩ => show win4_5.index t4_0 (1 : Fin 2) * 10 ≤ (i 1).val ∧ (i 1).val < win4_5.index t4_0 (1 : Fin 2) * 10 + 10; omega

/-- THE REGION'S VALUE: the result array ends as the body's expression of the five arrays it was entered with. -/
theorem value (c : Dev nD) :
    (dat4 V c).arrAt 5 cfg4.N
      = k4_pay1 (F := Ideal) (V c main_v112) (V c main_arg11) (V c main_v113) (V c main_arg13) (V c main_v114) :=
  (dat4 V c).arrAt_eq_of_cover 5 _ (fun t _ => flushed_eq V c t) covered

end Cert.KernelIdeal.Head

end
-- ==== Proof.RefHead.lean ====
/-
  The reference's head on the pooled features.

  The reference ends with  relu (pooled · Wm1 + bm1) · Wm2 + bm2 : two host matrix products with one contracted axis,
  each bias laid out as a [1,B] row and stretched over the 500 rows by two host broadcasts, and the relu as the maximum
  with a stretched zero constant. Over the extended reals this is
      (max ((P · W1) + b1, 0) · W2) + b2
  in the whole-matrix operations of the products module — the same expression the kernel's last region computes.
-/
import proofs.«107992_j2688649527319_1_alg».proof.Proof.Gen.ReferenceIdeal.Read
import proofs.«107992_j2688649527319_1_alg».proof.Proof.Products

set_option maxRecDepth 16384

noncomputable section

namespace Cert.ReferenceIdeal.Head

open Cert.ReferenceIdeal Cert.ReferenceIdeal.Gen Cert.ReferenceIdeal.Read
open Idealize.ShloMosaic Idealize.ShloMosaic.TcCoe Idealize.ShloMosaic.ValueIdx

/-- The reference's last operations, as whole-matrix operations of the pooled features and the head's parameters. -/
theorem head_eq (P : FVec Ideal S500x256 .f32) (W1 : FVec Ideal S256x256 .f32) (b1 : FVec Ideal S256 .f32)
    (W2 : FVec Ideal S256x10 .f32) (b2 : FVec Ideal S10 .f32) :
    addf (Host.dotGeneral dot_S500x256_S256x10_S500x10_1_0_0_1_n_n none
          (maximumf (addf (Host.dotGeneral dot_S500x256_S256x256_S500x256_1_0_0_1_n_n none P W1)
              (broadcastInDim S500x256 ![0, 1] bcast_S1x256_S500x256_0_1 (broadcastInDim S1x256 ![1] bcast_S256_S1x256_1 b1)))
            (broadcastInDim S500x256 ![] bcast_S_S500x256 (constant (F := Ideal) S_ .f32 0x00000000#32))) W2)
        (broadcastInDim S500x10 ![0, 1] bcast_S1x10_S500x10_0_1 (broadcastInDim S1x10 ![1] bcast_S10_S1x10_1 b2))
      = Cert.Gnn.addRow (A := 500) (B := 10) (Cert.Gnn.matProd (A := 500) (K := 256) (B := 10)
          (Cert.Gnn.relu (Cert.Gnn.addRow (A := 500) (B := 256) (Cert.Gnn.matProd (A := 500) (K := 256) (B := 256) P W1) b1)) W2) b2 := by
  rw [Cert.Gnn.hostDot dot_S500x256_S256x256_S500x256_1_0_0_1_n_n rfl rfl rfl rfl lhs_main_v113_0 rhs_main_v113_1 P W1]
  rw [Cert.Gnn.hostAddRow (A := 500) (B := 256) bcast_S256_S1x256_1 bcast_S1x256_S500x256_0_1 _ b1]
  rw [Cert.Gnn.hostRelu (A := 500) (B := 256) bcast_S_S500x256]
  rw [Cert.Gnn.hostDot dot_S500x256_S256x10_S500x10_1_0_0_1_n_n rfl rfl rfl rfl lhs_main_v118_0 rhs_main_v118_1 _ W2]
  rw [Cert.Gnn.hostAddRow (A := 500) (B := 10) bcast_S10_S1x10_1 bcast_S1x10_S500x10_0_1 _ b2]

end Cert.ReferenceIdeal.Head

end
-- ==== Proof.Fold4.lean ====
/-
  The fold through the last layer, the mean pooling and the head: the kernel's result.

  After the fourth layer the node features are summed per graph and divided by max(count, 1), the two biases of the
  head are laid out as rows, and the last region computes  (max ((pooled · Wm1) + bm1, 0) · Wm2) + bm2  on the whole
  arrays. The pooling is the reference's, operation by operation; the head's expression is the reference's last six
  operations read as whole-matrix operations. So the result buffer holds the reference's result term of the same
  arguments.
-/
import proofs.«107992_j2688649527319_1_alg».proof.Proof.Fold3
import proofs.«107992_j2688649527319_1_alg».proof.Proof.Head
import proofs.«107992_j2688649527319_1_alg».proof.Proof.RefHead
import proofs.«107992_j2688649527319_1_alg».proof.Proof.LibFoldSegments

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- Layer 4 before its relu: gather the projected features at the source nodes, scale each edge by its
    normalisation, sum into the destination nodes, add the bias — over the arrays the previous boundary holds, these
    are the reference's operations for this layer. -/
theorem pre4_eq : W12 m ρ c (Proc.devRef .tc main_v99)
    = Cert.ReferenceIdeal.Read.val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps4 (W11 m ρ c) (Proc.devRef .tc main_v99) = _
  simp only [hostOps4]
  after_results_simp
  rw [proj3_eq m ρ c, v3_W11 m ρ c, v6_W11 m ρ c, v28_W11 m ρ c, arg10_W11 m ρ c]
  rfl

/-- A value carried into layer 4's output buffer is unchanged: the buffer's type is the value's. -/
theorem out4_cast (v : (⟨S50000x256, .f32⟩ : BufTy).Contents (Elt Ideal)) :
    (TRef.of (sig := sig) (T := ⟨S50000x256, .f32⟩) main_v100).toBuf v = v := eq_of_heq (cast_heq _ _)

/-- What layer 4's pre-activation buffer holds, read at the value's type, is unchanged. -/
theorem in4_cast (u : (main_v99 : Ref sig .tc).ty.Contents (Elt Ideal)) :
    (TRef.of (sig := sig) (T := ⟨S50000x256, .f32⟩) main_v99).ofBuf u = u := eq_of_heq (cast_heq _ _)

/-- Layer 4's relu, an inlined call of three operations: the maximum of whatever the pre-activation buffer holds
    with a zero constant stretched to its shape. Each of the call's values passes through its buffer and back, which
    changes nothing. -/
theorem relu4_step : W13 m ρ c (Proc.devRef .tc main_v100)
    = maximumf (s := S50000x256) (φ := .f32) (W12 m ρ c (Proc.devRef .tc main_v99))
        (broadcastInDim S50000x256 ![] bcast_S_S50000x256 (constant (F := Ideal) S_ .f32 0x00000000#32)) := by
  show StableHlo.after hostOps4_1 (W12 m ρ c) (Proc.devRef .tc main_v100) = _
  simp only [hostOps4_1]
  after_results_simp
  simp only [Cert.LibFoldSegments.ofBuf_toBuf]
  rw [out4_cast, in4_cast]

/-- Layer 4's output is the reference's. -/
theorem h4_eq : W13 m ρ c (Proc.devRef .tc main_v100)
    = Cert.ReferenceIdeal.Read.val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [relu4_step m ρ c, pre4_eq m ρ c]
  rfl

/-- The pooled features: per-graph sums of the last layer's output over per-graph counts floored at one. -/
theorem pooled_eq : W14 m ρ c (Proc.devRef .tc main_v112)
    = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h100 := h4_eq m ρ c
  have h2 := arg2_W13 m ρ c
  show StableHlo.after hostOps4_2 (W13 m ρ c) (Proc.devRef .tc main_v112) = _
  generalize W13 m ρ c = V13 at h100 h2 ⊢
  simp only [hostOps4_2]
  after_results_simp
  rw [h100, h2]
  rfl

/-- The first head bias laid out as a [1,256] row. -/
theorem row1_eq : W14 m ρ c (Proc.devRef .tc main_v113)
    = shapeCast S1x256 (m ((c : Thread nD τ).loc main_arg12)) shapeCasts_S256_S1x256 := by
  have h12 := arg12_W13 m ρ c
  show StableHlo.after hostOps4_2 (W13 m ρ c) (Proc.devRef .tc main_v113) = _
  generalize W13 m ρ c = V13 at h12 ⊢
  simp only [hostOps4_2]
  after_results_simp
  rw [h12]
  rfl

/-- The second head bias laid out as a [1,10] row. -/
theorem row2_eq : W14 m ρ c (Proc.devRef .tc main_v114)
    = shapeCast S1x10 (m ((c : Thread nD τ).loc main_arg14)) shapeCasts_S10_S1x10 := by
  have h14 := arg14_W13 m ρ c
  show StableHlo.after hostOps4_2 (W13 m ρ c) (Proc.devRef .tc main_v114) = _
  generalize W13 m ρ c = V13 at h14 ⊢
  simp only [hostOps4_2]
  after_results_simp
  rw [h14]
  rfl

/-- THE KERNEL'S RESULT is the reference's result term of the same arguments. -/
theorem result_eq : W15 m ρ c (Proc.devRef .tc main_v115)
    = Cert.ReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W15_arr m ρ c 5).trans ?_
  rw [Cert.KernelIdeal.Head.value (V14 m ρ) c]
  show k4_pay1 (F := Ideal) (W14 m ρ c (Proc.devRef .tc main_v112)) (W14 m ρ c (Proc.devRef .tc main_arg11)) (W14 m ρ c (Proc.devRef .tc main_v113))
    (W14 m ρ c (Proc.devRef .tc main_arg13)) (W14 m ρ c (Proc.devRef .tc main_v114)) = _
  rw [pooled_eq m ρ c, arg11_W14 m ρ c, row1_eq m ρ c, arg13_W14 m ρ c, row2_eq m ρ c]
  rw [Cert.KernelIdeal.Head.body_eq]
  exact (Cert.ReferenceIdeal.Head.head_eq _ _ _ _ _).symm

end Cert.KernelIdeal.Fold

end
-- ==== Proof.lean ====
/-
  A four-layer graph convolution network with mean pooling and a two-layer head: the tiled kernel against its reference.

  Both programs compute, from node features x, an edge list, a graph assignment and the layers' parameters,
      h₀ = x,   hₖ = max (segment_sum ((hₖ₋₁ · Wₖ)[src] · norm, dst) + bₖ, 0)   (k = 1 … 4),
      pooled = segment_sum (h₄, batch) / max (count, 1),   out = max (pooled · Wm1 + bm1, 0) · Wm2 + bm2,
  where src and dst are the edges' end nodes with one loop per node appended and norm is
  rsqrt(max(deg,1))[src] · rsqrt(max(deg,1))[dst]. The kernel computes the four projections hₖ₋₁ · Wₖ and the head in
  tiled regions, each projection in ten tiles of 5000 nodes with operands narrowed to bf16 and accumulated in f32,
  and everything else by the same host operations as the reference. Over the extended reals a change of float
  format is the identity and a tile product into a zero accumulator is the sum of the products, so every tile of a
  projection is the corresponding rows of the reference's matrix product and the head is the reference's last six
  operations; no law that could fail at an infinity (distributivity, cancellation) is used anywhere, so the
  precondition that the inputs are finite is never opened.

  The proof follows the kernel's run boundary by boundary: after each stretch of host operations and after each
  region, the buffers that later segments read hold the reference's own stage values of the same arguments
  (modules Fold0 … Fold4 over Region0 … Region3 and Head); the reference's run and its stages are the generated
  modules Run and Read. The frames of the two kernel programs are the generated ones; the reference's is its run
  with the result dropped; the ideal pass rewrote nothing, so the preservation claim is the true proposition.
-/
import proofs.«107992_j2688649527319_1_alg».proof.Defs
import proofs.«107992_j2688649527319_1_alg».proof.Proof.Gen.Kernel.Frame
import proofs.«107992_j2688649527319_1_alg».proof.Proof.Gen.KernelIdeal.Frame
import proofs.«107992_j2688649527319_1_alg».proof.Proof.Gen.ReferenceIdeal.Run
import proofs.«107992_j2688649527319_1_alg».proof.Proof.Gen.ReferenceIdeal.Read
import proofs.«107992_j2688649527319_1_alg».proof.Proof.Gen.Pre_finite_inputs
import proofs.«107992_j2688649527319_1_alg».proof.Proof.KernelRun
import proofs.«107992_j2688649527319_1_alg».proof.Proof.Fold4

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the reference's result term of those arguments. -/
theorem algebraic : Cert.algebraic_KernelIdeal_ReferenceIdeal := by
  intro m ρ m' ρ' _ hagree
  refine ⟨fun c => Cert.ReferenceIdeal.Read.val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Fold.result_eq m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v121_eq, e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
